-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩
abbrev S1x128 : Shape := ⟨2, ![1, 128]⟩
abbrev S100000x64 : Shape := ⟨2, ![100000, 64]⟩
abbrev S5000x64 : Shape := ⟨2, ![5000, 64]⟩
abbrev S1x64 : Shape := ⟨2, ![1, 64]⟩

abbrev nBuf : Space → Nat
  | .hbm => 57
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S128x128, .bf16⟩
  | .hbm, ⟨24, _⟩ => ⟨S128x128, .bf16⟩
  | .hbm, ⟨25, _⟩ => ⟨S128x64, .bf16⟩
  | .hbm, ⟨26, _⟩ => ⟨S100000x128, .f32⟩
  | .hbm, ⟨27, _⟩ => ⟨S100000x128, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S128, .f32⟩
  | .local _ .vmem, ⟨16, _⟩ => ⟨S128x128, .bf16⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S128, .f32⟩
  | .local _ .vmem, ⟨28, _⟩ => ⟨S128x64, .bf16⟩
  | .local _ .vmem, ⟨29, _⟩ => ⟨S64, .f32⟩
  | .local _ .vmem, ⟨30, _⟩ => ⟨S5000x64, .f32⟩
  | .local _ .vmem, ⟨31, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15_0 : Ref sig .tc := ⟨.hbm, 26, rfl⟩
abbrev main_v15_1 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg6_0 : Ref sig .tc := ⟨.vmem, 30, rfl⟩
abbrev cc2_stg6_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem5_0 : DmaSem sig := 29
abbrev cc2_sem6_0 : DmaSem sig := 30
abbrev cc2_sem6_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .bf16 = 32 ∨ (Rect.block (s := S128x64) S128x64.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v26_1) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26_0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 130
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S1x1600000, .i32⟩
  | 9 => ⟨S1600000, .i32⟩
  | 10 => ⟨S1x1600000, .i32⟩
  | 11 => ⟨S1600000, .i32⟩
  | 12 => ⟨S100000x128, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S_, .i32⟩
  | 33 => ⟨S1600000, .i32⟩
  | 34 => ⟨S1600000, .i1⟩
  | 35 => ⟨S_, .i32⟩
  | 36 => ⟨S1600000, .i32⟩
  | 37 => ⟨S1600000, .i32⟩
  | 38 => ⟨S1600000, .i32⟩
  | 39 => ⟨S1600000x1, .i32⟩
  | 40 => ⟨S1600000, .f32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000x128, .f32⟩
  | 51 => ⟨S1600000x1, .f32⟩
  | 52 => ⟨S1600000x128, .f32⟩
  | 53 => ⟨S1600000x128, .f32⟩
  | 54 => ⟨S_, .f32⟩
  | 55 => ⟨S100000x128, .f32⟩
  | 56 => ⟨S1600000x1, .i32⟩
  | 57 => ⟨S100000x128, .f32⟩
  | 58 => ⟨S100000, .f32⟩
  | 59 => ⟨S100000x1, .f32⟩
  | 60 => ⟨S100000x128, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x128, .f32⟩
  | 70 => ⟨S_, .f32⟩
  | 71 => ⟨S1600000, .f32⟩
  | 72 => ⟨S_, .f32⟩
  | 73 => ⟨S100000, .f32⟩
  | 74 => ⟨S1600000x1, .i32⟩
  | 75 => ⟨S100000, .f32⟩
  | 76 => ⟨S_, .f32⟩
  | 77 => ⟨S100000, .f32⟩
  | 78 => ⟨S100000, .f32⟩
  | 79 => ⟨S100000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000, .f32⟩
  | 98 => ⟨S1600000, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1600000x128, .f32⟩
  | 108 => ⟨S1600000x1, .f32⟩
  | 109 => ⟨S1600000x128, .f32⟩
  | 110 => ⟨S1600000x128, .f32⟩
  | 111 => ⟨S_, .f32⟩
  | 112 => ⟨S100000x128, .f32⟩
  | 113 => ⟨S1600000x1, .i32⟩
  | 114 => ⟨S100000x128, .f32⟩
  | 115 => ⟨S100000, .f32⟩
  | 116 => ⟨S100000x1, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S100000x64, .f32⟩
  | 127 => ⟨S1x64, .f32⟩
  | _ => ⟨S100000x128, .f32⟩

abbrev hbmTy0_1 (i : Nat) : BufTy := match i % 128 with
  | 0 => ⟨S100000x64, .f32⟩
  | 1 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result named.  @main is six segments: three stretches of host operations and
  three node-tiled kernel regions.  Every weakly fair execution ends with each unscoped buffer at the contents the
  last boundary of that chain of segments gives it; read at the result array this says what the program returns,
  and read at an argument it says the argument is as launched.
-/
import proofs.«120913_j71536975282839_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array then holds what the last
    segment boundary holds there, and the eight arguments are as launched. -/
theorem run : θ_run defs (onTc (τ := τ) (main (F := F))) ⟨m, fun _ => 0, ρ⟩ (fun r => ∀ c : Dev nD,
      r.2.mem ((c.tc : Thread nD τ).loc main_v37) = W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Named

end
-- ==== Proof.KernelCarry.lean ====
/-
  Which segment of the kernel's @main last wrote each buffer a later segment reads.  The scale column, the edge
  words and the weights in their working format are written once by the first stretch of host operations; a region
  reads them through input windows and leaves them as they were, a later stretch does not write them.  So at the
  entry of each region and each stretch they still hold what the first stretch (or the launch, for an argument)
  left there.
-/
import proofs.«120913_j71536975282839_2_alg».proof.Proof.Gen.KernelIdeal.Frame
import Idealize.ShloMosaic.PureOps.Ideal

set_option maxRecDepth 16384

noncomputable section

namespace Cert.KernelIdeal.Carry

open Idealize.ShloMosaic Idealize.ShloMosaic.TcCoe Idealize.ShloMosaic.Tactic Idealize.SL.Sem
open Idealize.ShloMosaic.Pipeline (Dat Cfg Window)
open Cert.KernelIdeal Cert.KernelIdeal.Gen

/-- no operation of the named stretch writes the buffer in the goal -/
macro "host_skip " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg) (c : Dev nD)

theorem v11_at3 : W3 m ρ c (Proc.devRef .tc main_v11) = W1 m ρ c (Proc.devRef .tc main_v11) :=
  calc W3 m ρ c (Proc.devRef .tc main_v11)
    _ = W2 m ρ c (Proc.devRef .tc main_v11) := by host_skip hostOps1
    _ = W1 m ρ c (Proc.devRef .tc main_v11) := (W2_arr m ρ c 2).trans (((dat0 (V1 m ρ) c).arrAt_in 2 rfl _).trans (A_eq0 (V1 m ρ) c 2))

theorem v11_at5 : W5 m ρ c (Proc.devRef .tc main_v11) = W1 m ρ c (Proc.devRef .tc main_v11) :=
  calc W5 m ρ c (Proc.devRef .tc main_v11)
    _ = W4 m ρ c (Proc.devRef .tc main_v11) := by host_skip hostOps2
    _ = W3 m ρ c (Proc.devRef .tc main_v11) := (W4_arr m ρ c 2).trans (((dat1 (V3 m ρ) c).arrAt_in 2 rfl _).trans (A_eq1 (V3 m ρ) c 2))
    _ = W2 m ρ c (Proc.devRef .tc main_v11) := by host_skip hostOps1
    _ = W1 m ρ c (Proc.devRef .tc main_v11) := (W2_arr m ρ c 2).trans (((dat0 (V1 m ρ) c).arrAt_in 2 rfl _).trans (A_eq0 (V1 m ρ) c 2))

theorem v1_at2 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

theorem v3_at2 : W2 m ρ c (Proc.devRef .tc main_v3) = W1 m ρ c (Proc.devRef .tc main_v3) :=
  calc W2 m ρ c (Proc.devRef .tc main_v3)
    _ = W1 m ρ c (Proc.devRef .tc main_v3) := W2_of_ne m ρ c main_v3 (by decide)

theorem v1_at4 : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by host_skip hostOps1
    _ = W1 m ρ c (Proc.devRef .tc main_v1) := W2_of_ne m ρ c main_v1 (by decide)

theorem v3_at4 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_skip hostOps1
    _ = W1 m ρ c (Proc.devRef .tc main_v3) := W2_of_ne m ρ c main_v3 (by decide)

theorem v13_at3 : W3 m ρ c (Proc.devRef .tc main_v13) = W1 m ρ c (Proc.devRef .tc main_v13) :=
  calc W3 m ρ c (Proc.devRef .tc main_v13)
    _ = W2 m ρ c (Proc.devRef .tc main_v13) := by host_skip hostOps1
    _ = W1 m ρ c (Proc.devRef .tc main_v13) := W2_of_ne m ρ c main_v13 (by decide)

theorem v14_at5 : W5 m ρ c (Proc.devRef .tc main_v14) = W1 m ρ c (Proc.devRef .tc main_v14) :=
  calc W5 m ρ c (Proc.devRef .tc main_v14)
    _ = W4 m ρ c (Proc.devRef .tc main_v14) := by host_skip hostOps2
    _ = W3 m ρ c (Proc.devRef .tc main_v14) := W4_of_ne m ρ c main_v14 (by decide)
    _ = W2 m ρ c (Proc.devRef .tc main_v14) := by host_skip hostOps1
    _ = W1 m ρ c (Proc.devRef .tc main_v14) := W2_of_ne m ρ c main_v14 (by decide)

theorem v15_0_at3 : W3 m ρ c (Proc.devRef .tc main_v15_0) = W2 m ρ c (Proc.devRef .tc main_v15_0) :=
  calc W3 m ρ c (Proc.devRef .tc main_v15_0)
    _ = W2 m ρ c (Proc.devRef .tc main_v15_0) := by host_skip hostOps1

theorem v26_0_at5 : W5 m ρ c (Proc.devRef .tc main_v26_0) = W4 m ρ c (Proc.devRef .tc main_v26_0) :=
  calc W5 m ρ c (Proc.devRef .tc main_v26_0)
    _ = W4 m ρ c (Proc.devRef .tc main_v26_0) := by host_skip hostOps2

theorem arg3_at3 : W3 m ρ c (Proc.devRef .tc main_arg3) = W0 m ρ c (Proc.devRef .tc main_arg3) :=
  calc W3 m ρ c (Proc.devRef .tc main_arg3)
    _ = W2 m ρ c (Proc.devRef .tc main_arg3) := by host_skip hostOps1
    _ = W1 m ρ c (Proc.devRef .tc main_arg3) := W2_of_ne m ρ c main_arg3 (by decide)
    _ = W0 m ρ c (Proc.devRef .tc main_arg3) := by host_skip hostOps0

theorem arg5_at5 : W5 m ρ c (Proc.devRef .tc main_arg5) = W0 m ρ c (Proc.devRef .tc main_arg5) :=
  calc W5 m ρ c (Proc.devRef .tc main_arg5)
    _ = W4 m ρ c (Proc.devRef .tc main_arg5) := by host_skip hostOps2
    _ = W3 m ρ c (Proc.devRef .tc main_arg5) := W4_of_ne m ρ c main_arg5 (by decide)
    _ = W2 m ρ c (Proc.devRef .tc main_arg5) := by host_skip hostOps1
    _ = W1 m ρ c (Proc.devRef .tc main_arg5) := W2_of_ne m ρ c main_arg5 (by decide)
    _ = W0 m ρ c (Proc.devRef .tc main_arg5) := by host_skip hostOps0

theorem arg7_at5 : W5 m ρ c (Proc.devRef .tc main_arg7) = W0 m ρ c (Proc.devRef .tc main_arg7) :=
  calc W5 m ρ c (Proc.devRef .tc main_arg7)
    _ = W4 m ρ c (Proc.devRef .tc main_arg7) := by host_skip hostOps2
    _ = W3 m ρ c (Proc.devRef .tc main_arg7) := W4_of_ne m ρ c main_arg7 (by decide)
    _ = W2 m ρ c (Proc.devRef .tc main_arg7) := by host_skip hostOps1
    _ = W1 m ρ c (Proc.devRef .tc main_arg7) := W2_of_ne m ρ c main_arg7 (by decide)
    _ = W0 m ρ c (Proc.devRef .tc main_arg7) := by host_skip hostOps0

theorem arg0_at1 : W1 m ρ c (Proc.devRef .tc main_arg0) = W0 m ρ c (Proc.devRef .tc main_arg0) :=
  calc W1 m ρ c (Proc.devRef .tc main_arg0)
    _ = W0 m ρ c (Proc.devRef .tc main_arg0) := by host_skip hostOps0

end Cert.KernelIdeal.Carry

end
-- ==== Proof.LibDotRows.lean ====
/-
  The host's matrix product, read at a row and a column.

  For dimension numbers that contract the left operand's axis 1 against the right operand's axis 0, with no batch axis,
  the host product of an [M, K] and a [K, N] array reads at (p, c) as the sum over a < K of l(p, a) · r(a, c): on the
  extended reals the host product is the plain sum over the contraction shape's indices, and that shape has one axis.
  The companion of the same reading of a kernel's product into a zero accumulator.
-/
import Idealize.ShloMosaic.PureOps.Ideal.Laws
import Idealize.ShloMosaic.Lib.ValueIdx

noncomputable section

namespace Cert.LibDotRows

open Idealize.ShloMosaic Idealize.ShloMosaic.ValueIdx

/-- The host product at (p, c), from the four facts that say which operand index the dimension numbers read at an
    output index and a contraction index. -/
theorem dotGeneral_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    Host.dotGeneral d prec l r (ix2 p c) = ∑ a : Fin K, l (ix2 p a) * r (ix2 a c) := by
  show FloatOps.dotGeneral d prec .single l r (ix2 p c) = _
  rw [Ideal.dotGeneral_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibDotRows

end
-- ==== Proof.LibLayout.lean ====
/-
  Two spellings of one re-layout. Adding a unit axis to a vector — a reshape of [n] to [n, 1] or to [1, n] — and
  the broadcast_in_dim that sends the vector's one axis to the non-unit axis of the same result shape are the same
  function: element (r, 0) (respectively (0, r)) of either is element r of the vector.
-/
import Idealize.ShloMosaic.Lib.Pipeline.Value
import Idealize.ShloMosaic.Lib.ValueIdx
import Idealize.ShloMosaic.Lib.ValueLayout

noncomputable section

namespace Cert.LibLayout

open Idealize.ShloMosaic

variable {α : Type}

/-- [n] → [n, 1]: the reshape is the broadcast along axis 0; entry (r, 0) of either is entry r of the vector. -/
theorem shapeCast_col_eq_broadcastInDim (n : Nat) (v : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ v h = broadcastInDim ⟨2, ![n, 1]⟩ ![0] hb v := by
  funext j
  have hj1 : (j 1).val = 0 := by have := (j 1).isLt; simp at this; omega
  let k : (⟨1, ![n]⟩ : Shape).Idx := fun a => ⟨(j 0).val, by
    have ha : a = 0 := Subsingleton.elim _ _
    subst ha
    show (j 0).val < n
    exact (j 0).isLt⟩
  rw [shapeCast_apply v h j k ?_, broadcastInDim_apply ![0] hb v j k ?_]
  · intro a
    have ha : a = 0 := Subsingleton.elim _ _
    subst ha
    by_cases h1 : (⟨1, ![n]⟩ : Shape).size 0 = 1
    · rw [if_pos h1]
      have : (j 0).val < n := (j 0).isLt
      have h1' : n = 1 := h1
      show (j 0).val = 0
      omega
    · rw [if_neg h1]; rfl
  · rw [Shape.rowMajor_val_one, Shape.rowMajor_val_two]
    show (j 0).val = (j 0).val * 1 + (j 1).val
    omega

/-- [n] → [1, n]: the reshape is the broadcast along axis 1; entry (0, r) of either is entry r of the vector. -/
theorem shapeCast_row_eq_broadcastInDim (n : Nat) (v : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ v h = broadcastInDim ⟨2, ![1, n]⟩ ![1] hb v := by
  funext j
  have hj0 : (j 0).val = 0 := by have := (j 0).isLt; simp at this; omega
  let k : (⟨1, ![n]⟩ : Shape).Idx := fun a => ⟨(j 1).val, by
    have ha : a = 0 := Subsingleton.elim _ _
    subst ha
    show (j 1).val < n
    exact (j 1).isLt⟩
  rw [shapeCast_apply v h j k ?_, broadcastInDim_apply ![1] hb v j k ?_]
  · intro a
    have ha : a = 0 := Subsingleton.elim _ _
    subst ha
    by_cases h1 : (⟨1, ![n]⟩ : Shape).size 0 = 1
    · rw [if_pos h1]
      have : (j 1).val < n := (j 1).isLt
      have h1' : n = 1 := h1
      show (j 1).val = 0
      omega
    · rw [if_neg h1]; rfl
  · rw [Shape.rowMajor_val_one, Shape.rowMajor_val_two]
    show (j 1).val = (j 0).val * n + (j 1).val
    rw [hj0]; omega

end Cert.LibLayout

end
-- ==== Proof.LibScatterGather.lean ====
/-
  Row scatter-add and row gather, read at an index. A table of N rows of width C; E row numbers, held as an
  [E, 1] array of integer words; E update rows of width C.
  Scatter-add: update element (e, k') lands on table element (i, k) exactly when the signed reading of word e
  is i and k' = k, so table element (i, k) receives the sum over those e whose word reads i of update (e, k).
  Gather: result element (e, k) is table element (r, k) with r the signed reading of word e clamped into [0, N - 1].
-/
import Idealize.ShloMosaic.PureOps.Ideal
import Idealize.ShloMosaic.PureOps.Ideal.Laws
import Idealize.ShloMosaic.Lib.ValueIdx
import Idealize.ShloMosaic.Lib.ReduceAll

noncomputable section

open scoped BigOperators

namespace Cert.ScatterGather

open Idealize.ShloMosaic Idealize.ShloMosaic.ValueIdx

/-! ## Scatter-add along rows -/

/-- The dimension numbers of a scatter of whole rows: the update's axis 1 is the window, the table's axis 0 is
    the scattered one, one index word per update row. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the row axis the window of update element (e, k') starts at the signed reading of word e. -/
theorem start_row : (rowScatter N E C wf).start (ix2 e k') idx 0 = (idx (ix2 e 0)).toInt := by
  unfold ScatterDims.start
  rw [dif_pos (show (0 : Fin 2) ∈ (rowScatter N E C wf).scatterDimsToOperandDims from List.mem_singleton.mpr rfl)]
  have hsi : (rowScatter N E C wf).siIdx (ix2 e k') ⟨List.idxOf (0 : Fin 2) (rowScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis it starts at 0. -/
theorem start_col : (rowScatter N E C wf).start (ix2 e k') idx 1 = 0 := rfl

/-- The window coordinate on the row axis is 0 … -/
theorem window_row : (rowScatter N E C wf).window (ix2 e k') 0 = 0 := rfl

/-- … and on the column axis it is k'. -/
theorem window_col : (rowScatter N E C wf).window (ix2 e k') 1 = k'.val := rfl

end Scatter

section ScatterIdx
variable {N E C w : Nat} (wf : ScatterDims.WF ⟨2, ![N, C]⟩ ⟨2, ![E, 1]⟩ ⟨2, ![E, C]⟩ [1] [0] [0] 1)
  (idx : IVec ⟨2, ![E, 1]⟩ w)

/-- WHERE AN UPDATE ELEMENT LANDS: (e, k') lands on (i, k) exactly when word e reads i and k' = k. -/
theorem resultIdx_rows (e : Fin E) (k' : Fin C) (i : Fin N) (k : Fin C) :
    (rowScatter N E C wf).resultIdx? (ix2 e k') idx = some (ix2 i k) ↔ (idx (ix2 e 0)).toInt = (i.val : ℤ) ∧ k' = k := by
  unfold ScatterDims.resultIdx?
  split
  · rename_i h
    rw [Option.some.injEq]
    constructor
    · intro hf
      have h0 := congrArg Fin.val (congrFun hf 0)
      have h1 := congrArg Fin.val (congrFun hf 1)
      have g0 := (h 0).1
      simp only [start_row, window_row, start_col, window_col] at h0 h1 g0
      refine ⟨?_, Fin.ext ?_⟩
      · show (idx (ix2 e 0)).toInt = (i.val : ℤ)
        have : ((idx (ix2 e 0)).toInt + ((0 : ℕ) : ℤ)).toNat = i.val := h0
        omega
      · have : ((0 : ℤ) + (k'.val : ℤ)).toNat = k.val := h1
        omega
    · rintro ⟨hv, rfl⟩
      funext a; refine Fin.ext ?_
      match a with
      | ⟨0, _⟩ =>
        show ((rowScatter N E C wf).start (ix2 e k') idx 0 + ((rowScatter N E C wf).window (ix2 e k') 0 : ℤ)).toNat = i.val
        rw [start_row, window_row, hv]; omega
      | ⟨1, _⟩ =>
        show ((rowScatter N E C wf).start (ix2 e k') idx 1 + ((rowScatter N E C wf).window (ix2 e k') 1 : ℤ)).toNat = k'.val
        rw [start_col, window_col]; omega
  · rename_i h
    constructor
    · intro hf; exact absurd hf (by simp)
    · rintro ⟨hv, rfl⟩
      refine absurd (fun a => ?_) h
      match a with
      | ⟨0, _⟩ =>
        show 0 ≤ (rowScatter N E C wf).start (ix2 e k') idx 0 + ((rowScatter N E C wf).window (ix2 e k') 0 : ℤ) ∧
          (rowScatter N E C wf).start (ix2 e k') idx 0 + ((rowScatter N E C wf).window (ix2 e k') 0 : ℤ) < (N : ℤ)
        rw [start_row, window_row, hv]; have := i.isLt; omega
      | ⟨1, _⟩ =>
        show 0 ≤ (rowScatter N E C wf).start (ix2 e k') idx 1 + ((rowScatter N E C wf).window (ix2 e k') 1 : ℤ) ∧
          (rowScatter N E C wf).start (ix2 e k') idx 1 + ((rowScatter N E C wf).window (ix2 e k') 1 : ℤ) < (C : ℤ)
        rw [start_col, window_col]; have := k'.isLt; omega

/-- THE SCATTER-ADD READ AT (i, k): the table's element plus the updates (e, k) of the rows e whose word reads i. -/
theorem scatterAdd_rows_apply (x : (⟨2, ![N, C]⟩ : Shape).Idx → EReal) (upd : (⟨2, ![E, C]⟩ : Shape).Idx → EReal)
    (i : Fin N) (k : Fin C) :
    Ideal.hostScatterAdd (rowScatter N E C wf) x idx upd (ix2 i k)
      = x (ix2 i k) + ∑ e ∈ Finset.univ.filter (fun e : Fin E => (idx (ix2 e 0)).toInt = (i.val : ℤ)), upd (ix2 e k) := by
  unfold Ideal.hostScatterAdd
  congr 1
  rw [Finset.sum_filter, sum_idx2, Finset.sum_filter]
  refine Finset.sum_congr rfl fun e _ => ?_
  simp only [resultIdx_rows]
  by_cases hv : (idx (ix2 e 0)).toInt = (i.val : ℤ)
  · simp only [hv, true_and, if_true]
    rw [Finset.sum_ite_eq' Finset.univ k (fun b => upd (ix2 e b))]
    simp
  · simp only [hv, false_and, if_false, Finset.sum_const_zero]

end ScatterIdx

/-! ## Gather along rows -/

/-- The dimension numbers of a gather of whole rows: one index word per result row names a table row
    (slices of one row, all C columns), the result's axis 1 runs over the columns. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section Gather
variable {α : Type} {N E C w : Nat}

/-- THE GATHER READ AT (e, k): the table at row "word e read signed, clamped into [0, N - 1]", column k. -/
theorem gather_rows_apply (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGather N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGather N E C wf).start (ix2 e k) idx 0 + (rowGather N E C wf).batchCoord (ix2 e k) 0
        + (rowGather N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E C wf).startIndexMap from List.mem_singleton.mpr rfl)]
    have hsi : (rowGather N E C wf).siIdx (ix2 e k) ⟨List.idxOf (0 : Fin 2) (rowGather N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E C wf).start (ix2 e k) idx 1 + (rowGather N E C wf).batchCoord (ix2 e k) 1
        + (rowGather N E C wf).offCoord (ix2 e k) 1 = k.val
    rw [GatherDims.batchCoord_eq_zero _ _ _ List.not_mem_nil]
    have hs : (rowGather N E C wf).start (ix2 e k) idx 1 = 0 := rfl
    have ho : (rowGather N E C wf).offCoord (ix2 e k) 1 = k.val := rfl
    rw [hs, ho]; omega

/-- The same, with the table's row named by the caller: any r whose number is the clamped reading of word e. -/
theorem gather_rows_apply_of_eq (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) (r : Fin N)
    (hr : min (idx (ix2 e 0)).toInt.toNat (N - 1) = r.val) :
    Host.gather (rowGather N E C wf) x idx (ix2 e k) = x (ix2 r k) := by
  rw [gather_rows_apply hN wf]
  refine congrArg x (funext fun a => ?_)
  match a with
  | ⟨0, _⟩ => exact Fin.ext hr
  | ⟨1, _⟩ => rfl

end Gather

/-! ## Row lookup with a fill value for row numbers out of range

A lookup of rows of a table of 50000 rows by 800000 signed row numbers, in the form a lookup with "fill" mode
takes: a negative number is first wrapped by adding 50000; a row number that after that is outside [0, 49999]
gives a row of the fill value; otherwise the (clamped) gather gives the table's row. For a row number already
in [0, 50000) nothing is wrapped, both range tests pass, nothing is clamped, and the result is the table's row. -/

/-- A left fold by `and` over one-bit words that are all 1, started at 1, is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and` from 1 is 1 at a result index when every element that reduces into it is 1. -/
theorem reduce_andi_eq_one_of_all {s t u : Shape} {axes : List (Fin s.rank)} (x : s.Idx → BitVec 1)
    (init : u.Idx → BitVec 1) (h : s.ReducesTo axes t) (hu : 0 < u.numel) (j : t.Idx)
    (hi : init (Shape.Idx.first hu) = 1#1) (hx : ∀ i, h.drop i = j → x i = 1#1) :
    Host.reduce IntOp.andi x init h hu j = 1#1 := by
  rw [Host.reduce_eq_foldl, hi]
  refine foldl_andi_one x _ fun i hi' => ?_
  rw [List.mem_filter] at hi'
  exact hx i (by simpa using hi'.2)

/-- A vector of 800000 entries broadcast along axis 0 of an [800000, m] array reads, at (e, c), its entry e. -/
theorem broadcast_rows_apply {α : Type} {m : Nat}
    (hb : (⟨1, ![800000]⟩ : Shape).BroadcastsInDim ⟨2, ![800000, m]⟩ (![0] : Fin 1 → Fin 2))
    (x : (⟨1, ![800000]⟩ : Shape).Idx → α) (i : (⟨2, ![800000, m]⟩ : Shape).Idx) :
    broadcastInDim ⟨2, ![800000, m]⟩ ![0] hb x i = x (ix1 (i 0)) := by
  unfold broadcastInDim
  refine congrArg x (funext fun a => Fin.ext ?_)
  match a with
  | ⟨0, _⟩ => rfl

section Take
variable {F : FTy → Type} [FloatOps F] {C : Nat}
  (hb0 : (⟨0, ![]⟩ : Shape).BroadcastsInDim ⟨1, ![800000]⟩ (![] : Fin 0 → Fin (⟨1, ![800000]⟩ : Shape).rank))
  (hb1 : (⟨1, ![800000]⟩ : Shape).BroadcastsInDim ⟨2, ![800000, 1]⟩ (![0] : Fin 1 → Fin (⟨2, ![800000, 1]⟩ : Shape).rank))
  (hb2 : (⟨0, ![]⟩ : Shape).BroadcastsInDim ⟨2, ![800000, 1]⟩ (![] : Fin 0 → Fin (⟨2, ![800000, 1]⟩ : Shape).rank))
  (hb3 : (⟨1, ![1]⟩ : Shape).BroadcastsInDim ⟨2, ![1, 1]⟩ (![1] : Fin 1 → Fin (⟨2, ![1, 1]⟩ : Shape).rank))
  (hb4 : (⟨2, ![1, 1]⟩ : Shape).BroadcastsInDim ⟨2, ![800000, 1]⟩ (![0, 1] : Fin 2 → Fin (⟨2, ![800000, 1]⟩ : Shape).rank))
  (hr : (⟨2, ![800000, 1]⟩ : Shape).ReducesTo [1] ⟨1, ![800000]⟩)
  (hu : 0 < (⟨0, ![]⟩ : Shape).numel)
  (hb5 : (⟨1, ![800000]⟩ : Shape).BroadcastsInDim ⟨2, ![800000, C]⟩ (![0] : Fin 1 → Fin (⟨2, ![800000, C]⟩ : Shape).rank))
  (hb6 : (⟨0, ![]⟩ : Shape).BroadcastsInDim ⟨2, ![800000, C]⟩ (![] : Fin 0 → Fin (⟨2, ![800000, C]⟩ : Shape).rank))
  (wf : GatherDims.WF ⟨2, ![50000, C]⟩ ⟨2, ![800000, 1]⟩ ⟨2, ![800000, C]⟩ [1] [0] [] [0] [] 1 ![1, C])

/-- The lookup: wrap negative row numbers, make the row numbers a column, test each against [0, 49999], gather the
    rows, and put the fill value (the pattern 0x7FC00000) where the test failed. -/
def takeFill (T : FVec F ⟨2, ![50000, C]⟩ .f32) (s : IVec ⟨1, ![800000]⟩ 32) : FVec F ⟨2, ![800000, C]⟩ .f32 :=
  select
    (broadcastInDim ⟨2, ![800000, C]⟩ ![0] hb5
      (Host.reduce IntOp.andi
        (andi
          (cmpi .sge
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![] hb2 (constantI ⟨0, ![]⟩ 32 0#32)))
          (cmpi .sle
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![0, 1] hb4
              (broadcastInDim ⟨2, ![1, 1]⟩ ![1] hb3 (constantI ⟨1, ![1]⟩ 32 49999#32)))))
        (constantI ⟨0, ![]⟩ 1 1#1) hr hu))
    (Host.gather (rowGather 50000 800000 C wf) T
      (broadcastInDim ⟨2, ![800000, 1]⟩ ![0] hb1
        (select (cmpi .slt s (broadcastInDim ⟨1, ![800000]⟩ ![] hb0 (constantI ⟨0, ![]⟩ 32 0#32)))
          (addi s (broadcastInDim ⟨1, ![800000]⟩ ![] hb0 (constantI ⟨0, ![]⟩ 32 50000#32))) s)))
    (broadcastInDim ⟨2, ![800000, C]⟩ ![] hb6 (constant ⟨0, ![]⟩ .f32 0x7FC00000#32))

/-- A nonnegative row number is not wrapped. -/
theorem wrap_apply (s : IVec ⟨1, ![800000]⟩ 32) (j : (⟨1, ![800000]⟩ : Shape).Idx) (h0 : 0 ≤ (s j).toInt) :
    select (cmpi .slt s (broadcastInDim ⟨1, ![800000]⟩ ![] hb0 (constantI ⟨0, ![]⟩ 32 0#32)))
      (addi s (broadcastInDim ⟨1, ![800000]⟩ ![] hb0 (constantI ⟨0, ![]⟩ 32 50000#32))) s j = s j := by
  show Scalar.select (IntOp.cmpi .slt (s j) 0#32) _ _ = s j
  unfold Scalar.select
  rw [if_neg]
  intro hc
  have := IntOp.cmpi_slt.1 hc
  rw [show (0#32 : BitVec 32).toInt = 0 from by decide] at this
  omega

/-- THE LOOKUP READ AT (e, k), for a row number in [0, 50000): the table's row of that number, column k. -/
theorem takeFill_apply (T : FVec F ⟨2, ![50000, C]⟩ .f32) (s : IVec ⟨1, ![800000]⟩ 32) (e : Fin 800000) (k : Fin C)
    (h0 : 0 ≤ (s (ix1 e)).toInt) (h1 : (s (ix1 e)).toInt < 50000) :
    takeFill hb0 hb1 hb2 hb3 hb4 hr hu hb5 hb6 wf T s (ix2 e k)
      = T (ix2 ⟨(s (ix1 e)).toInt.toNat, by omega⟩ k) := by
  unfold takeFill
  rw [select_apply, broadcast_rows_apply hb5]
  -- the row-number column read at row e is the row number e itself
  have hv : ∀ i : (⟨2, ![800000, 1]⟩ : Shape).Idx, i 0 = e →
      broadcastInDim ⟨2, ![800000, 1]⟩ ![0] hb1
        (select (cmpi .slt s (broadcastInDim ⟨1, ![800000]⟩ ![] hb0 (constantI ⟨0, ![]⟩ 32 0#32)))
          (addi s (broadcastInDim ⟨1, ![800000]⟩ ![] hb0 (constantI ⟨0, ![]⟩ 32 50000#32))) s) i = s (ix1 e) := by
    intro i hi
    rw [broadcast_rows_apply hb1, hi, wrap_apply hb0 s (ix1 e) h0]
  -- both range tests pass at row e
  have hok : Host.reduce IntOp.andi
        (andi
          (cmpi .sge
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![] hb2 (constantI ⟨0, ![]⟩ 32 0#32)))
          (cmpi .sle
            (broadcastInDim ⟨2, ![800000, 1]⟩ ![0] hb1
              (select (cmpi .slt s (broadcastInDim ⟨1, ![800000]⟩ ![] hb0 (constantI ⟨0, ![]⟩ 32 0#32)))
                (addi s (broadcastInDim ⟨1, ![800000]⟩ ![] hb0 (constantI ⟨0, ![]⟩ 32 50000#32))) s))
            (broadcastInDim ⟨2, ![800000, 1]⟩ ![0, 1] hb4
              (broadcastInDim ⟨2, ![1, 1]⟩ ![1] hb3 (constantI ⟨1, ![1]⟩ 32 49999#32)))))
        (constantI ⟨0, ![]⟩ 1 1#1) hr hu (ix1 ((ix2 e k : (⟨2, ![800000, C]⟩ : Shape).Idx) 0)) = 1#1 := by
    refine reduce_andi_eq_one_of_all _ _ hr hu _ rfl fun i hi => ?_
    have hi0 : i 0 = e := by
      have := congrArg Fin.val (congrFun hi 0)
      exact Fin.ext this
    show IntOp.andi (IntOp.cmpi .sge _ 0#32) (IntOp.cmpi .sle _ 49999#32) = 1#1
    rw [hv i hi0, IntOp.andi_eq_one, IntOp.cmpi_sge, IntOp.cmpi_sle,
      show (0#32 : BitVec 32).toInt = 0 from by decide, show (49999#32 : BitVec 32).toInt = 49999 from by decide]
    omega
  rw [hok, select_one]
  refine gather_rows_apply_of_eq (by decide) wf T _ e k _ ?_
  rw [hv (ix2 e 0) rfl]
  show min (s (ix1 e)).toInt.toNat (50000 - 1) = (s (ix1 e)).toInt.toNat
  omega

end Take

end Cert.ScatterGather

end
-- ==== Proof.LibVecGather.lean ====
/-
  Gather of single entries of a vector, read at an index. A vector of N entries; E positions, held as an [E, 1]
  array of integer words. Result entry e is the vector's entry r with r the signed reading of word e clamped into
  [0, N - 1].
-/
import Idealize.ShloMosaic.PureOps.Ideal
import Idealize.ShloMosaic.Lib.ValueIdx

noncomputable section

namespace Cert.VecGather

open Idealize.ShloMosaic Idealize.ShloMosaic.ValueIdx

/-- The dimension numbers of a gather of single entries of a vector: one index word per result entry names an
    entry of the vector (slices of one entry), no offset axis. -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE GATHER READ AT e: the vector at entry "word e read signed, clamped into [0, N - 1]". -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGather N E wf) x idx (ix1 e)
      = x (ix1 ⟨min (idx (ix2 e 0)).toInt.toNat (N - 1), by omega⟩) := by
  unfold Host.gather
  congr 1
  funext a
  refine Fin.ext ?_
  match a with
  | ⟨0, _⟩ =>
    show (vecGather N E wf).start (ix1 e) idx 0 + (vecGather N E wf).batchCoord (ix1 e) 0
        + (vecGather N E wf).offCoord (ix1 e) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGather N E wf).startIndexMap from List.mem_singleton.mpr rfl)]
    have hsi : (vecGather N E wf).siIdx (ix1 e) ⟨List.idxOf (0 : Fin 1) (vecGather N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Cert.VecGather

end
-- ==== Proof.LibRealEntries.lean ====
import Idealize.ShloMosaic.PureOps.Ideal
import Idealize.ShloMosaic.PureOps.Ideal.Laws

/-!
# Real entries inside the extended reals, and a scale moved through a contraction

On the extended reals a factor does not move across a sum in general (an infinite term absorbs). Where every entry
is a real number it does: `(∑ₖ aₖ·wₖ)·c = ∑ₖ (aₖ·c)·wₖ`. This file keeps the closure facts that say which
entries are reals — products, sums, maxima, a power of a base at least one to a negative real exponent, an exact
scatter-add of reals into reals — and that law; and the float words `-0.5` and `1.0` as reals.
-/

noncomputable section

open scoped BigOperators

namespace Cert.LibRealEntries

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.max {x y : EReal} (hx : IsReal x) (hy : IsReal y) : IsReal (max x y) := by
  rcases max_choice x y with h | h <;> rw [h] <;> assumption

/-- A finite sum of reals is a real. -/
theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self _ _)).add (ih fun i hi => h i (Finset.mem_insert_of_mem hi))

/-- The coercion of the reals commutes with a finite sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- THE LAW: over real entries a scale applied after a contraction is the contraction of the scaled left factors. -/
theorem scale_sum {ι : Type*} [Fintype ι] (a w : ι → EReal) (c : EReal) (ha : ∀ k, IsReal (a k)) (hw : ∀ k, IsReal (w k))
    (hc : IsReal c) : (∑ k, a k * w k) * c = ∑ k, (a k * c) * w k := by
  choose a' ha' using ha
  choose w' hw' using hw
  obtain ⟨c', rfl⟩ := hc
  obtain rfl : a = fun k => ((a' k : ℝ) : EReal) := funext ha'
  obtain rfl : w = fun k => ((w' k : ℝ) : EReal) := funext hw'
  have h1 : ∀ k, ((a' k : ℝ) : EReal) * ((w' k : ℝ) : EReal) = ((a' k * w' k : ℝ) : EReal) := fun k => (EReal.coe_mul _ _).symm
  have h2 : ∀ k, (((a' k : ℝ) : EReal) * ((c' : ℝ) : EReal)) * ((w' k : ℝ) : EReal) = ((a' k * c' * w' k : ℝ) : EReal) :=
    fun k => by rw [← EReal.coe_mul, ← EReal.coe_mul]
  simp only [h1, h2]
  rw [coe_sum, coe_sum, ← EReal.coe_mul]
  congr 1
  rw [Finset.sum_mul]
  exact Finset.sum_congr rfl fun k _ => by ring

/-- A base clamped below by one, raised to a negative real power, is a real: the power of a real base by the real
    power function, and `0` at the infinite base. -/
theorem isReal_pow_max_one (d : EReal) (y : ℝ) (hy : y < 0) : IsReal (Ideal.pow (max d 1) (y : EReal)) := by
  induction d using EReal.rec with
  | bot =>
    rw [max_eq_right bot_le, ← EReal.coe_one]
    exact ⟨Real.rpow 1 y, rfl⟩
  | top =>
    rw [max_eq_left le_top]
    show IsReal (if 0 < (y : EReal) then ⊤ else if (y : EReal) = 0 then 1 else 0)
    rw [if_neg (not_lt.mpr (EReal.coe_nonpos.mpr hy.le)), if_neg (by exact_mod_cast hy.ne)]
    exact isReal_zero
  | coe x =>
    rw [← EReal.coe_one, ← EReal.coe_strictMono.monotone.map_max]
    exact ⟨Real.rpow (max x 1) y, rfl⟩

/-- A scatter-add of reals into reals is an array of reals: each entry is the operand's plus a finite sum of updates. -/
theorem isReal_hostScatterAdd {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

/-- The word of `-0.5` is the real `-1/2`. -/
theorem ofBits_neg_half : Ideal.ofBits .f32 0xBF000000#32 = (((-1 / 2 : ℝ)) : EReal) := by
  simp [Ideal.ofBits, Ideal.ieee, -EReal.coe_mul]; norm_num

/-- The word of `1.0` is `1`. -/
theorem ofBits_one : Ideal.ofBits .f32 0x3F800000#32 = 1 := by
  simp [Ideal.ofBits, Ideal.ieee, -EReal.coe_mul]; norm_num

end Cert.LibRealEntries

end
-- ==== Proof.LibGraphLayer.lean ====
/-
  One graph-convolution layer over N nodes, E edges and C features, written two ways, at the exact (extended-real)
  instance.  H : [N, C] are the node features after the linear map, dis : [N] a per-node scale, b : [C] a bias;
  an edge e reads node r e (a word read signed and clamped into [0, N - 1]) and lands on node n when its target
  word reads n.
    first form   K(n, f) = dis n * (0 + sum over the edges landing on n of H(r e, f) * dis(r e)) + b f
    second form  R(n, f) =         (0 + sum over the edges landing on n of H(r e, f) * (dis(r e) * dis(c' e))) + b f
  On the extended reals a factor does not move across a sum in general; it does where every entry is a real number.
  So the two forms agree, entry by entry, when H and dis have real entries and c' e = n for every edge landing on n.
-/
import Idealize.ShloMosaic.PureOps.Ideal
import Idealize.ShloMosaic.PureOps.Ideal.Laws
import Idealize.ShloMosaic.Lib.ValueIdx
import Idealize.ShloMosaic.Lib.Pipeline.Value
import proofs.«120913_j71536975282839_2_alg».proof.Proof.LibScatterGather
import proofs.«120913_j71536975282839_2_alg».proof.Proof.LibVecGather
import proofs.«120913_j71536975282839_2_alg».proof.Proof.LibRealEntries

noncomputable section

open scoped BigOperators

namespace Cert.Layer

open Idealize.ShloMosaic Idealize.ShloMosaic.ValueIdx Cert.LibRealEntries Cert.ScatterGather Cert.VecGather

/-! ## Broadcasts read at an index -/

/-- A vector of n entries made a column [n, 1] reads, at (p, z), its entry p. -/
theorem bc_col_apply {α : Type} {n : Nat}
    (hb : (⟨1, ![n]⟩ : Shape).BroadcastsInDim ⟨2, ![n, 1]⟩ (![0] : Fin 1 → Fin (⟨2, ![n, 1]⟩ : Shape).rank))
    (x : (⟨1, ![n]⟩ : Shape).Idx → α) (p : Fin n) (z : Fin 1) :
    broadcastInDim ⟨2, ![n, 1]⟩ ![0] hb x (ix2 p z) = x (ix1 p) := by
  refine broadcastInDim_apply _ hb x _ _ fun a => ?_
  match a with
  | ⟨0, _⟩ =>
    show p.val = if n = 1 then 0 else p.val
    split
    · have := p.isLt; omega
    · rfl

/-- A column [n, 1] stretched to [n, m] reads, at (p, k), its entry (p, 0). -/
theorem bc_cols_apply {α : Type} {n m : Nat}
    (hb : (⟨2, ![n, 1]⟩ : Shape).BroadcastsInDim ⟨2, ![n, m]⟩ (![0, 1] : Fin 2 → Fin (⟨2, ![n, m]⟩ : Shape).rank))
    (x : (⟨2, ![n, 1]⟩ : Shape).Idx → α) (p : Fin n) (k : Fin m) :
    broadcastInDim ⟨2, ![n, m]⟩ ![0, 1] hb x (ix2 p k) = x (ix2 p 0) := by
  refine broadcastInDim_apply _ hb x _ _ fun a => ?_
  match a with
  | ⟨0, _⟩ =>
    show p.val = if n = 1 then 0 else p.val
    split
    · have := p.isLt; omega
    · rfl
  | ⟨1, _⟩ => rfl

/-- A vector of m entries made a row [1, m] reads, at (z, k), its entry k. -/
theorem bc_row_apply {α : Type} {m : Nat}
    (hb : (⟨1, ![m]⟩ : Shape).BroadcastsInDim ⟨2, ![1, m]⟩ (![1] : Fin 1 → Fin (⟨2, ![1, m]⟩ : Shape).rank))
    (x : (⟨1, ![m]⟩ : Shape).Idx → α) (z : Fin 1) (k : Fin m) :
    broadcastInDim ⟨2, ![1, m]⟩ ![1] hb x (ix2 z k) = x (ix1 k) := by
  refine broadcastInDim_apply _ hb x _ _ fun a => ?_
  match a with
  | ⟨0, _⟩ =>
    show k.val = if m = 1 then 0 else k.val
    split
    · have := k.isLt; omega
    · rfl

/-- A row [1, m] stretched to [n, m] reads, at (p, k), its entry (0, k). -/
theorem bc_rows_apply {α : Type} {n m : Nat}
    (hb : (⟨2, ![1, m]⟩ : Shape).BroadcastsInDim ⟨2, ![n, m]⟩ (![0, 1] : Fin 2 → Fin (⟨2, ![n, m]⟩ : Shape).rank))
    (x : (⟨2, ![1, m]⟩ : Shape).Idx → α) (p : Fin n) (k : Fin m) :
    broadcastInDim ⟨2, ![n, m]⟩ ![0, 1] hb x (ix2 p k) = x (ix2 0 k) := by
  refine broadcastInDim_apply _ hb x _ _ fun a => ?_
  match a with
  | ⟨0, _⟩ => rfl
  | ⟨1, _⟩ =>
    show k.val = if m = 1 then 0 else k.val
    split
    · have := k.isLt; omega
    · rfl

/-- A scalar splat over any shape reads the scalar everywhere. -/
theorem bc_scalar_apply {α : Type} {s : Shape}
    (h0 : (⟨0, ![]⟩ : Shape).BroadcastsInDim s (![] : Fin 0 → Fin s.rank))
    (x : (⟨0, ![]⟩ : Shape).Idx → α) (i : s.Idx) :
    broadcastInDim s ![] h0 x i = x ix0 := by
  unfold broadcastInDim
  exact congrArg x (funext fun a => a.elim0)

/-- The splat of the zero word reads 0 everywhere. -/
theorem zero_splat_apply {s : Shape}
    (h0 : (⟨0, ![]⟩ : Shape).BroadcastsInDim s (![] : Fin 0 → Fin s.rank)) (i : s.Idx) :
    broadcastInDim s ![] h0 (constant (F := Ideal) ⟨0, ![]⟩ .f32 0x00000000#32) i = (0 : EReal) := by
  rw [bc_scalar_apply, constant_apply, Ideal.ofBits_zero_f32]

/-! ## Two small companions -/

/-- relu of a real entry is real: max with the zero splat -/
theorem relu_real {s : Shape} (h0 : (⟨0, ![]⟩ : Shape).BroadcastsInDim s (![] : Fin 0 → Fin s.rank))
    (x : FVec Ideal s .f32) (i : s.Idx) (hx : IsReal (x i)) :
    IsReal (maximumf x (broadcastInDim s ![] h0 (constant (F := Ideal) ⟨0, ![]⟩ .f32 0x00000000#32)) i) := by
  rw [maximumf_apply, zero_splat_apply]
  exact hx.max isReal_zero

/-- an edge word that reads a node number n ≥ 0 is not wrapped, and clamping it into [0, N-1] leaves n -/
theorem clamp_wrapped_of_reads {E N : Nat}
    (h0E : (⟨0, ![]⟩ : Shape).BroadcastsInDim ⟨1, ![E]⟩ (![] : Fin 0 → Fin (⟨1, ![E]⟩ : Shape).rank))
    (col : IVec ⟨1, ![E]⟩ 32) (Nw : BitVec 32) (e : Fin E) (n : Fin N) (h : (col (ix1 e)).toInt = (n.val : ℤ)) :
    min ((select (cmpi .slt col (broadcastInDim ⟨1, ![E]⟩ ![] h0E (constantI ⟨0, ![]⟩ 32 0#32)))
            (addi col (broadcastInDim ⟨1, ![E]⟩ ![] h0E (constantI ⟨0, ![]⟩ 32 Nw))) col) (ix1 e)).toInt.toNat (N - 1) = n.val := by
  have hsel : (select (cmpi .slt col (broadcastInDim ⟨1, ![E]⟩ ![] h0E (constantI ⟨0, ![]⟩ 32 0#32)))
      (addi col (broadcastInDim ⟨1, ![E]⟩ ![] h0E (constantI ⟨0, ![]⟩ 32 Nw))) col) (ix1 e) = col (ix1 e) := by
    show Scalar.select (IntOp.cmpi .slt (col (ix1 e)) 0#32) _ _ = col (ix1 e)
    unfold Scalar.select
    rw [if_neg]
    intro hc
    have := IntOp.cmpi_slt.1 hc
    rw [show (0#32 : BitVec 32).toInt = 0 from by decide] at this
    omega
  rw [hsel, h]
  have := n.isLt
  omega

/-! ## Scatter-add and gathers whose words are a vector made a column -/

/-- A 32-bit word read signed and clamped into [0, N - 1]: the entry a gather reads. -/
def clampIdx {N : Nat} (hN : 0 < N) (w : BitVec 32) : Fin N := ⟨min w.toInt.toNat (N - 1), by omega⟩

theorem clampIdx_val {N : Nat} (hN : 0 < N) (w : BitVec 32) : (clampIdx hN w).val = min w.toInt.toNat (N - 1) := rfl

section Readers
variable {N E C : Nat}
  (wfS : ScatterDims.WF ⟨2, ![N, C]⟩ ⟨2, ![E, 1]⟩ ⟨2, ![E, C]⟩ [1] [0] [0] 1)
  (wfG : GatherDims.WF ⟨2, ![N, C]⟩ ⟨2, ![E, 1]⟩ ⟨2, ![E, C]⟩ [1] [0] [] [0] [] 1 ![1, C])
  (wfV : GatherDims.WF ⟨1, ![N]⟩ ⟨2, ![E, 1]⟩ ⟨1, ![E]⟩ [] [0] [] [0] [] 1 ![1])
  (hE1 : (⟨1, ![E]⟩ : Shape).BroadcastsInDim ⟨2, ![E, 1]⟩ (![0] : Fin 1 → Fin (⟨2, ![E, 1]⟩ : Shape).rank))

/-- The exact scatter-add of rows read at (n, f): the table's entry plus the updates (e, f) of the edges e whose
    word reads n. -/
theorem scatterAdd_col_apply (x : FVec Ideal ⟨2, ![N, C]⟩ .f32) (idx : IVec ⟨1, ![E]⟩ 32)
    (upd : FVec Ideal ⟨2, ![E, C]⟩ .f32) (n : Fin N) (f : Fin C) :
    Host.scatterAdd (rowScatter N E C wfS) x (broadcastInDim ⟨2, ![E, 1]⟩ ![0] hE1 idx) upd (ix2 n f)
      = x (ix2 n f) + ∑ e ∈ Finset.univ.filter (fun e : Fin E => (idx (ix1 e)).toInt = (n.val : ℤ)), upd (ix2 e f) := by
  refine (scatterAdd_rows_apply wfS _ x upd n f).trans ?_
  refine congrArg (fun t => x (ix2 n f) + t) (Finset.sum_congr (Finset.filter_congr fun e _ => ?_) fun _ _ => rfl)
  rw [bc_col_apply]

/-- The gather of rows read at (e, k): the table at the row word e names, column k. -/
theorem gather_col_apply {α : Type} (hN : 0 < N) (x : (⟨2, ![N, C]⟩ : Shape).Idx → α) (idx : IVec ⟨1, ![E]⟩ 32)
    (e : Fin E) (k : Fin C) :
    Host.gather (rowGather N E C wfG) x (broadcastInDim ⟨2, ![E, 1]⟩ ![0] hE1 idx) (ix2 e k)
      = x (ix2 (clampIdx hN (idx (ix1 e))) k) :=
  gather_rows_apply_of_eq hN wfG x _ e k _ (by rw [bc_col_apply, clampIdx_val])

/-- The gather of single entries read at e: the vector at the entry word e names. -/
theorem gather_vcol_apply {α : Type} (hN : 0 < N) (x : (⟨1, ![N]⟩ : Shape).Idx → α) (idx : IVec ⟨1, ![E]⟩ 32)
    (e : Fin E) :
    Host.gather (vecGather N E wfV) x (broadcastInDim ⟨2, ![E, 1]⟩ ![0] hE1 idx) (ix1 e)
      = x (ix1 (clampIdx hN (idx (ix1 e)))) := by
  refine (gather_vec_apply hN wfV x _ e).trans (congrArg x (funext fun a => ?_))
  match a with
  | ⟨0, _⟩ =>
    refine Fin.ext ?_
    show min ((broadcastInDim ⟨2, ![E, 1]⟩ ![0] hE1 idx) (ix2 e 0)).toInt.toNat (N - 1) = (clampIdx hN (idx (ix1 e))).val
    rw [bc_col_apply, clampIdx_val]

end Readers

/-! ## The layer, two ways -/

section
variable {N E C : Nat}
  (wfS : ScatterDims.WF ⟨2, ![N, C]⟩ ⟨2, ![E, 1]⟩ ⟨2, ![E, C]⟩ [1] [0] [0] 1)
  (wfG : GatherDims.WF ⟨2, ![N, C]⟩ ⟨2, ![E, 1]⟩ ⟨2, ![E, C]⟩ [1] [0] [] [0] [] 1 ![1, C])
  (wfV : GatherDims.WF ⟨1, ![N]⟩ ⟨2, ![E, 1]⟩ ⟨1, ![E]⟩ [] [0] [] [0] [] 1 ![1])
  (hN1 : (⟨1, ![N]⟩ : Shape).BroadcastsInDim ⟨2, ![N, 1]⟩ (![0] : Fin 1 → Fin (⟨2, ![N, 1]⟩ : Shape).rank))
  (hNC : (⟨2, ![N, 1]⟩ : Shape).BroadcastsInDim ⟨2, ![N, C]⟩ (![0, 1] : Fin 2 → Fin (⟨2, ![N, C]⟩ : Shape).rank))
  (h0NC : (⟨0, ![]⟩ : Shape).BroadcastsInDim ⟨2, ![N, C]⟩ (![] : Fin 0 → Fin (⟨2, ![N, C]⟩ : Shape).rank))
  (hE1 : (⟨1, ![E]⟩ : Shape).BroadcastsInDim ⟨2, ![E, 1]⟩ (![0] : Fin 1 → Fin (⟨2, ![E, 1]⟩ : Shape).rank))
  (hEC : (⟨2, ![E, 1]⟩ : Shape).BroadcastsInDim ⟨2, ![E, C]⟩ (![0, 1] : Fin 2 → Fin (⟨2, ![E, C]⟩ : Shape).rank))
  (hC1 : (⟨1, ![C]⟩ : Shape).BroadcastsInDim ⟨2, ![1, C]⟩ (![1] : Fin 1 → Fin (⟨2, ![1, C]⟩ : Shape).rank))
  (h1C : (⟨2, ![1, C]⟩ : Shape).BroadcastsInDim ⟨2, ![N, C]⟩ (![0, 1] : Fin 2 → Fin (⟨2, ![N, C]⟩ : Shape).rank))

/-- the kernel's form of the layer -/
def layerK (H : FVec Ideal ⟨2, ![N, C]⟩ .f32) (dis : FVec Ideal ⟨1, ![N]⟩ .f32) (rowN col : IVec ⟨1, ![E]⟩ 32) (b : FVec Ideal ⟨1, ![C]⟩ .f32) :
    FVec Ideal ⟨2, ![N, C]⟩ .f32 :=
  addf
    (mulf (broadcastInDim ⟨2, ![N, C]⟩ ![0, 1] hNC (broadcastInDim ⟨2, ![N, 1]⟩ ![0] hN1 dis))
      (Host.scatterAdd (rowScatter N E C wfS)
        (broadcastInDim ⟨2, ![N, C]⟩ ![] h0NC (constant (F := Ideal) ⟨0, ![]⟩ .f32 0x00000000#32))
        (broadcastInDim ⟨2, ![E, 1]⟩ ![0] hE1 col)
        (Host.gather (rowGather N E C wfG)
          (mulf H (broadcastInDim ⟨2, ![N, C]⟩ ![0, 1] hNC (broadcastInDim ⟨2, ![N, 1]⟩ ![0] hN1 dis)))
          (broadcastInDim ⟨2, ![E, 1]⟩ ![0] hE1 rowN))))
    (broadcastInDim ⟨2, ![N, C]⟩ ![0, 1] h1C (broadcastInDim ⟨2, ![1, C]⟩ ![1] hC1 b))

/-- the reference's form of the layer -/
def layerR (H : FVec Ideal ⟨2, ![N, C]⟩ .f32) (dis : FVec Ideal ⟨1, ![N]⟩ .f32) (rowN colN col : IVec ⟨1, ![E]⟩ 32) (b : FVec Ideal ⟨1, ![C]⟩ .f32) :
    FVec Ideal ⟨2, ![N, C]⟩ .f32 :=
  addf
    (Host.scatterAdd (rowScatter N E C wfS)
      (broadcastInDim ⟨2, ![N, C]⟩ ![] h0NC (constant (F := Ideal) ⟨0, ![]⟩ .f32 0x00000000#32))
      (broadcastInDim ⟨2, ![E, 1]⟩ ![0] hE1 col)
      (mulf (Host.gather (rowGather N E C wfG) H (broadcastInDim ⟨2, ![E, 1]⟩ ![0] hE1 rowN))
        (broadcastInDim ⟨2, ![E, C]⟩ ![0, 1] hEC (broadcastInDim ⟨2, ![E, 1]⟩ ![0] hE1
          (mulf (Host.gather (vecGather N E wfV) dis (broadcastInDim ⟨2, ![E, 1]⟩ ![0] hE1 rowN))
                (Host.gather (vecGather N E wfV) dis (broadcastInDim ⟨2, ![E, 1]⟩ ![0] hE1 colN)))))))
    (broadcastInDim ⟨2, ![N, C]⟩ ![0, 1] h1C (broadcastInDim ⟨2, ![1, C]⟩ ![1] hC1 b))

/-- The first form read at (n, f). -/
theorem layerK_apply (hN : 0 < N) (H : FVec Ideal ⟨2, ![N, C]⟩ .f32) (dis : FVec Ideal ⟨1, ![N]⟩ .f32)
    (rowN col : IVec ⟨1, ![E]⟩ 32) (b : FVec Ideal ⟨1, ![C]⟩ .f32) (n : Fin N) (f : Fin C) :
    layerK wfS wfG hN1 hNC h0NC hE1 hC1 h1C H dis rowN col b (ix2 n f)
      = dis (ix1 n) * (0 + ∑ e ∈ Finset.univ.filter (fun e : Fin E => (col (ix1 e)).toInt = (n.val : ℤ)),
            H (ix2 (clampIdx hN (rowN (ix1 e))) f) * dis (ix1 (clampIdx hN (rowN (ix1 e)))))
          + b (ix1 f) := by
  unfold layerK
  rw [addf_apply, mulf_apply, bc_cols_apply hNC, bc_col_apply hN1, bc_rows_apply h1C, bc_row_apply hC1,
    scatterAdd_col_apply, zero_splat_apply]
  refine congrArg (fun t => dis (ix1 n) * (0 + t) + b (ix1 f)) (Finset.sum_congr rfl fun e _ => ?_)
  rw [gather_col_apply wfG hE1 hN, mulf_apply, bc_cols_apply hNC, bc_col_apply hN1]

/-- The second form read at (n, f). -/
theorem layerR_apply (hN : 0 < N) (H : FVec Ideal ⟨2, ![N, C]⟩ .f32) (dis : FVec Ideal ⟨1, ![N]⟩ .f32)
    (rowN colN col : IVec ⟨1, ![E]⟩ 32) (b : FVec Ideal ⟨1, ![C]⟩ .f32) (n : Fin N) (f : Fin C) :
    layerR wfS wfG wfV h0NC hE1 hEC hC1 h1C H dis rowN colN col b (ix2 n f)
      = (0 + ∑ e ∈ Finset.univ.filter (fun e : Fin E => (col (ix1 e)).toInt = (n.val : ℤ)),
            H (ix2 (clampIdx hN (rowN (ix1 e))) f)
              * (dis (ix1 (clampIdx hN (rowN (ix1 e)))) * dis (ix1 (clampIdx hN (colN (ix1 e))))))
          + b (ix1 f) := by
  unfold layerR
  rw [addf_apply, bc_rows_apply h1C, bc_row_apply hC1, scatterAdd_col_apply, zero_splat_apply]
  refine congrArg (fun t => (0 + t) + b (ix1 f)) (Finset.sum_congr rfl fun e _ => ?_)
  rw [mulf_apply, gather_col_apply wfG hE1 hN, bc_cols_apply hEC, bc_col_apply hE1, mulf_apply,
    gather_vcol_apply wfV hE1 hN, gather_vcol_apply wfV hE1 hN]

/-- THE LAW: over real entries, and with the second scale of every edge landing on n read at n itself, the two forms
    agree entry by entry. The outer scale dis n is a real, so it moves inside the finite sum of reals. -/
theorem layer_eq (hN : 0 < N) (H : FVec Ideal ⟨2, ![N, C]⟩ .f32) (dis : FVec Ideal ⟨1, ![N]⟩ .f32)
    (rowN colN col : IVec ⟨1, ![E]⟩ 32) (b : FVec Ideal ⟨1, ![C]⟩ .f32)
    (hH : ∀ (p : Fin N) (f : Fin C), IsReal (H (ix2 p f))) (hdis : ∀ n : Fin N, IsReal (dis (ix1 n)))
    (hcol : ∀ (e : Fin E) (n : Fin N), (col (ix1 e)).toInt = (n.val : ℤ) → min (colN (ix1 e)).toInt.toNat (N - 1) = n.val)
    (n : Fin N) (f : Fin C) :
    layerK wfS wfG hN1 hNC h0NC hE1 hC1 h1C H dis rowN col b (ix2 n f)
      = layerR wfS wfG wfV h0NC hE1 hEC hC1 h1C H dis rowN colN col b (ix2 n f) := by
  rw [layerK_apply wfS wfG hN1 hNC h0NC hE1 hC1 h1C hN, layerR_apply wfS wfG wfV h0NC hE1 hEC hC1 h1C hN]
  congr 1
  choose Hr hHr using hH
  choose dr hdr using hdis
  -- each term of the first form is the real H(r e, f) * dis(r e)
  have hK : ∀ e ∈ Finset.univ.filter (fun e : Fin E => (col (ix1 e)).toInt = (n.val : ℤ)),
      H (ix2 (clampIdx hN (rowN (ix1 e))) f) * dis (ix1 (clampIdx hN (rowN (ix1 e))))
        = ((Hr (clampIdx hN (rowN (ix1 e))) f * dr (clampIdx hN (rowN (ix1 e))) : ℝ) : EReal) := by
    intro e _
    rw [hHr, hdr, ← EReal.coe_mul]
  -- each term of the second form is the real H(r e, f) * (dis(r e) * dis n): the edge lands on n, so c' e = n
  have hR : ∀ e ∈ Finset.univ.filter (fun e : Fin E => (col (ix1 e)).toInt = (n.val : ℤ)),
      H (ix2 (clampIdx hN (rowN (ix1 e))) f)
          * (dis (ix1 (clampIdx hN (rowN (ix1 e)))) * dis (ix1 (clampIdx hN (colN (ix1 e)))))
        = ((Hr (clampIdx hN (rowN (ix1 e))) f * (dr (clampIdx hN (rowN (ix1 e))) * dr n) : ℝ) : EReal) := by
    intro e he
    have hc : clampIdx hN (colN (ix1 e)) = n := Fin.ext (hcol e n (Finset.mem_filter.mp he).2)
    rw [hc, hHr, hdr, hdr n, ← EReal.coe_mul, ← EReal.coe_mul]
  rw [Finset.sum_congr rfl hK, Finset.sum_congr rfl hR, coe_sum, coe_sum, zero_add, zero_add, hdr n, ← EReal.coe_mul]
  congr 1
  rw [Finset.mul_sum]
  exact Finset.sum_congr rfl fun e _ => by ring

/-- the layer's result is real where the inputs are -/
theorem layerR_real (hN : 0 < N) (H : FVec Ideal ⟨2, ![N, C]⟩ .f32) (dis : FVec Ideal ⟨1, ![N]⟩ .f32)
    (rowN colN col : IVec ⟨1, ![E]⟩ 32) (b : FVec Ideal ⟨1, ![C]⟩ .f32)
    (hH : ∀ (p : Fin N) (f : Fin C), IsReal (H (ix2 p f))) (hdis : ∀ n : Fin N, IsReal (dis (ix1 n)))
    (hb : ∀ f : Fin C, IsReal (b (ix1 f))) (n : Fin N) (f : Fin C) :
    IsReal (layerR wfS wfG wfV h0NC hE1 hEC hC1 h1C H dis rowN colN col b (ix2 n f)) := by
  rw [layerR_apply wfS wfG wfV h0NC hE1 hEC hC1 h1C hN]
  exact (isReal_zero.add (IsReal.sum _ _ fun e _ => (hH _ _).mul ((hdis _).mul (hdis _)))).add (hb f)

end

end Cert.Layer

end
-- ==== Proof.LibVecScatter.lean ====
/-
  Scatter-add into a vector, read at an index. A vector of N entries; E positions, held as an [E, 1] array of integer
  words; E update values. Update e lands on entry i exactly when the signed reading of word e is i, so entry i
  receives the sum of the updates whose word reads i. The same sum is what a one-column matrix [N, 1] receives at
  (i, 0) from one-column update rows, so the two scatters agree entry by entry.
-/
import Idealize.ShloMosaic.PureOps.Ideal
import Idealize.ShloMosaic.PureOps.Ideal.Laws
import Idealize.ShloMosaic.Lib.ValueIdx
import proofs.«120913_j71536975282839_2_alg».proof.Proof.LibScatterGather

noncomputable section

open scoped BigOperators

namespace Cert.VecScatter

open Idealize.ShloMosaic Idealize.ShloMosaic.ValueIdx

/-- A rank-1 index is its one coordinate. -/
def idxEquiv1 {n : Nat} : (⟨1, ![n]⟩ : Shape).Idx ≃ Fin n where
  toFun j := j 0
  invFun a := ix1 a
  left_inv j := (eq_ix1 j).symm
  right_inv a := rfl

/-- A sum over the indices of a vector is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of single entries into a vector: no window axis on the updates, the vector's
    one axis is the scattered one, one index word per update. -/
abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E w : Nat} (wf : ScatterDims.WF ⟨1, ![N]⟩ ⟨2, ![E, 1]⟩ ⟨1, ![E]⟩ [] [0] [0] 1)
  (idx : IVec ⟨2, ![E, 1]⟩ w)

/-- Update e's window starts at the signed reading of word e. -/
theorem start_vec (e : Fin E) : (vecScatter N E wf).start (ix1 e) idx 0 = (idx (ix2 e 0)).toInt := by
  unfold ScatterDims.start
  rw [dif_pos (show (0 : Fin 1) ∈ (vecScatter N E wf).scatterDimsToOperandDims from List.mem_singleton.mpr rfl)]
  have hsi : (vecScatter N E wf).siIdx (ix1 e) ⟨List.idxOf (0 : Fin 1) (vecScatter N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- There is no window axis: the window coordinate is 0. -/
theorem window_vec (e : Fin E) : (vecScatter N E wf).window (ix1 e) 0 = 0 := rfl

/-- WHERE AN UPDATE LANDS: update e lands on entry i exactly when word e reads i. -/
theorem resultIdx_vec (e : Fin E) (i : Fin N) :
    (vecScatter N E wf).resultIdx? (ix1 e) idx = some (ix1 i) ↔ (idx (ix2 e 0)).toInt = (i.val : ℤ) := by
  unfold ScatterDims.resultIdx?
  split
  · rename_i h
    rw [Option.some.injEq]
    constructor
    · intro hf
      have h0 := congrArg Fin.val (congrFun hf 0)
      simp only [start_vec, window_vec] at h0
      have g0 := (h 0).1
      simp only [start_vec, window_vec] at g0
      have : ((idx (ix2 e 0)).toInt + ((0 : ℕ) : ℤ)).toNat = i.val := h0
      omega
    · intro hv
      funext a; refine Fin.ext ?_
      match a with
      | ⟨0, _⟩ =>
        show ((vecScatter N E wf).start (ix1 e) idx 0 + ((vecScatter N E wf).window (ix1 e) 0 : ℤ)).toNat = i.val
        rw [start_vec, window_vec, hv]; omega
  · rename_i h
    constructor
    · intro hf; exact absurd hf (by simp)
    · intro hv
      refine absurd (fun a => ?_) h
      match a with
      | ⟨0, _⟩ =>
        show 0 ≤ (vecScatter N E wf).start (ix1 e) idx 0 + ((vecScatter N E wf).window (ix1 e) 0 : ℤ) ∧
          (vecScatter N E wf).start (ix1 e) idx 0 + ((vecScatter N E wf).window (ix1 e) 0 : ℤ) < (N : ℤ)
        rw [start_vec, window_vec, hv]; have := i.isLt; omega

/-- THE SCATTER-ADD READ AT i: the vector's entry plus the updates e whose word reads i. -/
theorem scatterAdd_vec_apply (x : (⟨1, ![N]⟩ : Shape).Idx → EReal) (upd : (⟨1, ![E]⟩ : Shape).Idx → EReal) (i : Fin N) :
    Ideal.hostScatterAdd (vecScatter N E wf) x idx upd (ix1 i)
      = x (ix1 i) + ∑ e ∈ Finset.univ.filter (fun e : Fin E => (idx (ix2 e 0)).toInt = (i.val : ℤ)), upd (ix1 e) := by
  unfold Ideal.hostScatterAdd
  congr 1
  rw [Finset.sum_filter, sum_idx1, Finset.sum_filter]
  refine Finset.sum_congr rfl fun e _ => ?_
  simp only [resultIdx_vec]

/-- A constant scattered into a constant vector, and the same constant scattered as one-column rows into a constant
    one-column matrix, agree: entry i of the first is entry (i, 0) of the second. -/
theorem scatterAdd_vec_eq_col (wf' : ScatterDims.WF ⟨2, ![N, 1]⟩ ⟨2, ![E, 1]⟩ ⟨2, ![E, 1]⟩ [1] [0] [0] 1)
    (z o : EReal) (i : Fin N) :
    Ideal.hostScatterAdd (vecScatter N E wf) (fun _ => z) idx (fun _ => o) (ix1 i)
      = Ideal.hostScatterAdd (Cert.ScatterGather.rowScatter N E 1 wf') (fun _ => z) idx (fun _ => o) (ix2 i (0 : Fin 1)) := by
  rw [scatterAdd_vec_apply, Cert.ScatterGather.scatterAdd_rows_apply]

end

end Cert.VecScatter

end
-- ==== Proof.LibERealAlgebra.lean ====
/- General facts about the extended reals as the exact ("ideal") reading of float programs uses them: sums,
   quotients and square roots of finite values stay finite and are the real operations; a few float words as the
   exact reals they denote; and two finite-sum identities over the reals. -/
import Idealize.ShloMosaic.PureOps.Ideal
import Idealize.ShloMosaic.PureOps.Ideal.Laws
import Mathlib.Data.EReal.Inv
import Mathlib.Analysis.SpecialFunctions.Pow.Real
import Mathlib.Algebra.BigOperators.Group.Finset.Basic
import Mathlib.Tactic

noncomputable section

namespace Cert.LibEReal

open Idealize.ShloMosaic
open scoped BigOperators

/-- A finite sum of finite extended reals is the (finite) real sum. -/
theorem coe_sum {ι : Type*} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The quotient of two finite values by a nonzero divisor is the real quotient. -/
theorem div_coe' (a b : ℝ) (hb : b ≠ 0) : Ideal.div (a : EReal) (b : EReal) = ((a / b : ℝ) : EReal) := by
  rw [Ideal.div_coe hb, ← EReal.coe_mul, mul_one_div]

/-- The square root of a nonnegative finite value is the real square root. -/
theorem sqrt_coe (x : ℝ) (hx : 0 ≤ x) : Ideal.sqrt (x : EReal) = ((Real.sqrt x : ℝ) : EReal) := by
  rw [Ideal.sqrt_coe, if_neg (not_lt.mpr hx)]

/-- The reciprocal square root of a positive finite value is the reciprocal of the real square root. -/
theorem rsqrt_coe (x : ℝ) (hx : 0 < x) : Ideal.rsqrt (x : EReal) = (((Real.sqrt x)⁻¹ : ℝ) : EReal) := by
  rw [Ideal.rsqrt_coe, if_neg (not_lt.mpr hx.le), if_neg hx.ne']

/-- Multiplying by the reciprocal square root of a positive value is dividing by its square root. -/
theorem mul_rsqrt_eq_div_sqrt (a x : ℝ) (hx : 0 < x) :
    (a : EReal) * Ideal.rsqrt (x : EReal) = Ideal.div (a : EReal) (Ideal.sqrt (x : EReal)) := by
  have hs : Real.sqrt x ≠ 0 := (Real.sqrt_pos.mpr hx).ne'
  rw [rsqrt_coe x hx, sqrt_coe x hx.le, div_coe' a _ hs, ← EReal.coe_mul, div_eq_mul_inv]

/-- The float word `0x3F800000` denotes `1`. -/
theorem ofBits_one : Ideal.ofBits .f32 0x3F800000#32 = 1 := by
  simp [Ideal.ofBits, Ideal.ieee, -EReal.coe_mul]; norm_num

/-- The float word `0x46800000` denotes `16384 = 2 ^ 14`. -/
theorem ofBits_16384 : Ideal.ofBits .f32 0x46800000#32 = ((16384 : ℝ) : EReal) := by
  simp [Ideal.ofBits, Ideal.ieee, -EReal.coe_mul]; norm_num

/-- The float word `0x3727C5AC` (the float nearest `1e-5`) denotes a positive real, `10995116 · 2 ^ (-40)`. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The float word `0x3C23D70A` (the float nearest `0.01`) denotes a real, `10737418 · 2 ^ (-30)`. -/
theorem ofBits_slope : ∃ s : ℝ, Ideal.ofBits .f32 0x3C23D70A#32 = (s : EReal) := by
  refine ⟨(10737418 : ℝ) * (2 : ℝ) ^ (-30 : ℤ), ?_⟩
  simp [Ideal.ofBits, Ideal.ieee, -EReal.coe_mul]

/-- Adding a self-loop (a `1` on the diagonal) to row `i` raises its row sum by `1`. -/
theorem rowsum_selfloop {n : ℕ} (g : Fin n → ℝ) (i : Fin n) :
    ∑ j, (g j + if i = j then 1 else 0) = (∑ j, g j) + 1 := by
  rw [Finset.sum_add_distrib, Finset.sum_ite_eq Finset.univ i (fun _ => (1 : ℝ)), if_pos (Finset.mem_univ i)]

/-- Row `i` of the symmetrically normalised matrix `D (G + I) D` applied to `hp`: the scale `d i` comes out of the
    sum, and the diagonal `1` contributes the single term `d i * hp i`. -/
theorem normalized_product {n : ℕ} (g d hp : Fin n → ℝ) (i : Fin n) :
    ∑ j, (((g j + if i = j then 1 else 0) * d i) * d j) * hp j
      = d i * ((∑ j, g j * (d j * hp j)) + d i * hp i) := by
  have h : ∀ j, (((g j + if i = j then 1 else 0) * d i) * d j) * hp j
      = d i * (g j * (d j * hp j)) + (if i = j then d i * (d j * hp j) else 0) := by
    intro j
    split_ifs <;> ring
  rw [Finset.sum_congr rfl (fun j _ => h j), Finset.sum_add_distrib, ← Finset.mul_sum,
    Finset.sum_ite_eq Finset.univ i (fun j => d i * (d j * hp j)), if_pos (Finset.mem_univ i)]
  ring

/-- The sum of two finite values is the real sum (the coercion pushed outward). -/
theorem coe_add (a b : ℝ) : (a : EReal) + (b : EReal) = ((a + b : ℝ) : EReal) := (EReal.coe_add a b).symm

/-- The difference of two finite values is the real difference (the coercion pushed outward). -/
theorem coe_sub (a b : ℝ) : (a : EReal) - (b : EReal) = ((a - b : ℝ) : EReal) := (EReal.coe_sub a b).symm

/-- The product of two finite values is the real product (the coercion pushed outward). -/
theorem coe_mul (a b : ℝ) : (a : EReal) * (b : EReal) = ((a * b : ℝ) : EReal) := (EReal.coe_mul a b).symm

/-- The negative of a finite value is the real negative (the coercion pushed outward). -/
theorem coe_neg (a : ℝ) : -(a : EReal) = ((-a : ℝ) : EReal) := (EReal.coe_neg a).symm

/-- A mean of squares (over `16384` terms' worth) is nonnegative. -/
theorem sum_sq_div_nonneg {n : ℕ} (f : Fin n → ℝ) : 0 ≤ (∑ k, f k * f k) / 16384 :=
  div_nonneg (Finset.sum_nonneg fun k _ => mul_self_nonneg (f k)) (by norm_num)

/-- A mean of squares plus a positive constant is positive. -/
theorem sum_sq_div_add_pos {n : ℕ} (f : Fin n → ℝ) {e : ℝ} (he : 0 < e) : 0 < (∑ k, f k * f k) / 16384 + e :=
  add_pos_of_nonneg_of_pos (sum_sq_div_nonneg f) he

end Cert.LibEReal

end
-- ==== Proof.LibDegScale.lean ====
import Idealize.ShloMosaic.PureOps.Ideal
import Idealize.ShloMosaic.PureOps.Ideal.Laws
import Idealize.ShloMosaic.Lib.ValueIdx
import proofs.«120913_j71536975282839_2_alg».proof.Proof.LibVecScatter
import proofs.«120913_j71536975282839_2_alg».proof.Proof.LibRealEntries
import proofs.«120913_j71536975282839_2_alg».proof.Proof.LibERealAlgebra

/-!
# The per-node scale of a graph is an array of real numbers

A graph with `N` nodes and `E` edges; `col e` is the word naming edge `e`'s target. The degree `deg n` is a
scatter-add of ones into zeros: `0` plus a finite sum of ones, a real number. The scale is
`where(deg > 0, rsqrt(deg), 0)`: where the degree is positive, the reciprocal square root of a positive real, which is
the real `(√deg)⁻¹`; elsewhere `0`. Either way a real number.
-/

noncomputable section

namespace Cert.DegScale

open Idealize.ShloMosaic Idealize.ShloMosaic.ValueIdx Cert.LibRealEntries Cert.VecScatter

variable {N E : Nat}
  (wfVS : ScatterDims.WF ⟨1, ![N]⟩ ⟨2, ![E, 1]⟩ ⟨1, ![E]⟩ [] [0] [0] 1)
  (h0N : (⟨0, ![]⟩ : Shape).BroadcastsInDim ⟨1, ![N]⟩ (![] : Fin 0 → Fin (⟨1, ![N]⟩ : Shape).rank))
  (h0E : (⟨0, ![]⟩ : Shape).BroadcastsInDim ⟨1, ![E]⟩ (![] : Fin 0 → Fin (⟨1, ![E]⟩ : Shape).rank))
  (hE1 : (⟨1, ![E]⟩ : Shape).BroadcastsInDim ⟨2, ![E, 1]⟩ (![0] : Fin 1 → Fin (⟨2, ![E, 1]⟩ : Shape).rank))

/-- the number of edges landing on each node, as a float vector -/
def deg (col : IVec ⟨1, ![E]⟩ 32) : FVec Ideal ⟨1, ![N]⟩ .f32 :=
  Host.scatterAdd (vecScatter N E wfVS)
    (broadcastInDim ⟨1, ![N]⟩ ![] h0N (constant (F := Ideal) ⟨0, ![]⟩ .f32 0x00000000#32))
    (broadcastInDim ⟨2, ![E, 1]⟩ ![0] hE1 col)
    (broadcastInDim ⟨1, ![E]⟩ ![] h0E (constant (F := Ideal) ⟨0, ![]⟩ .f32 0x3F800000#32))

/-- where(deg > 0, rsqrt(deg), 0) -/
def degScale (col : IVec ⟨1, ![E]⟩ 32) : FVec Ideal ⟨1, ![N]⟩ .f32 :=
  select (cmpf (F := Ideal) .ogt (deg wfVS h0N h0E hE1 col) (broadcastInDim ⟨1, ![N]⟩ ![] h0N (constant (F := Ideal) ⟨0, ![]⟩ .f32 0x00000000#32)))
    (Host.rsqrt (deg wfVS h0N h0E hE1 col))
    (broadcastInDim ⟨1, ![N]⟩ ![] h0N (constant (F := Ideal) ⟨0, ![]⟩ .f32 0x00000000#32))

/-- A splat of a scalar constant reads the constant's value at every index. -/
theorem splat_apply {T : Shape} (hT : (⟨0, ![]⟩ : Shape).BroadcastsInDim T (![] : Fin 0 → Fin T.rank)) (b : BitVec FTy.f32.bits)
    (j : T.Idx) : broadcastInDim T ![] hT (constant (F := Ideal) ⟨0, ![]⟩ .f32 b) j = Ideal.ofBits .f32 b := rfl

/-- Every degree is a real number: `0` plus a finite sum of ones. -/
theorem deg_real (col : IVec ⟨1, ![E]⟩ 32) (i : (⟨1, ![N]⟩ : Shape).Idx) : IsReal (deg wfVS h0N h0E hE1 col i) := by
  show IsReal (Ideal.hostScatterAdd (vecScatter N E wfVS) _ _ _ i)
  refine isReal_hostScatterAdd _ _ _ _ (fun i => ?_) (fun j => ?_) i
  · rw [splat_apply, Ideal.ofBits_zero_f32]; exact isReal_zero
  · rw [splat_apply, ofBits_one]; exact isReal_one

/-- Every entry of the scale is a real number. -/
theorem degScale_real (col : IVec ⟨1, ![E]⟩ 32) (n : Fin N) : IsReal (degScale wfVS h0N h0E hE1 col (ix1 n)) := by
  obtain ⟨r, hr⟩ := deg_real wfVS h0N h0E hE1 col (ix1 n)
  unfold degScale
  rw [select_apply]
  by_cases hc : cmpf (F := Ideal) .ogt (deg wfVS h0N h0E hE1 col)
      (broadcastInDim ⟨1, ![N]⟩ ![] h0N (constant (F := Ideal) ⟨0, ![]⟩ .f32 0x00000000#32)) (ix1 n) = 1#1
  · rw [hc, select_one]
    change Ideal.cmp .ogt (deg wfVS h0N h0E hE1 col (ix1 n)) (Ideal.ofBits .f32 0x00000000#32) = 1#1 at hc
    show IsReal (Ideal.rsqrt (deg wfVS h0N h0E hE1 col (ix1 n)))
    rw [hr, Ideal.ofBits_zero_f32] at hc
    have hpos : 0 < r := by
      by_contra hn
      have : ¬ (0 : EReal) < (r : EReal) := fun h => hn (EReal.coe_pos.mp h)
      simp [Ideal.cmp, this] at hc
    rw [hr, Cert.LibEReal.rsqrt_coe r hpos]
    exact isReal_coe _
  · rw [eq_zero_of_ne_one hc, select_zero, splat_apply, Ideal.ofBits_zero_f32]
    exact isReal_zero

/-- The same at an arbitrary index of the vector. -/
theorem degScale_real_idx (col : IVec ⟨1, ![E]⟩ 32) (i : (⟨1, ![N]⟩ : Shape).Idx) :
    IsReal (degScale wfVS h0N h0E hE1 col i) := by
  rw [eq_ix1 i]
  exact degScale_real wfVS h0N h0E hE1 col _

end Cert.DegScale

end
-- ==== Proof.GraphIdx.lean ====
/-
  The arithmetic of one node-tiled stage of a two-layer graph convolution, entry by entry, on the extended reals.
  A node's row of features is multiplied into a weight matrix (`mm`); a row is rescaled by that node's entry of a
  one-column array (`scaleRows`); and the layer's nonlinearity joins an aggregated array `agg`, the node's own
  features `h`, the node's scale `d` and a bias `b` as  max (d n * (agg (n, k) + h (n, k) * d n) + b k, 0)
  (`combine`).  `addRow` adds a bias vector to every row.  Each definition reads an index through its two
  coordinates, so that a block of rows of the result depends on the same block of rows of the operands only.
-/
import Idealize.ShloMosaic.PureOps.Ideal
import Idealize.ShloMosaic.Lib.ValueIdx

noncomputable section

open scoped BigOperators

namespace Cert.Graph

open Idealize.ShloMosaic Idealize.ShloMosaic.ValueIdx

/-- an [A, B] array of extended reals -/
abbrev Mat (A B : Nat) : Type := (⟨2, ![A, B]⟩ : Shape).Idx → EReal
/-- a vector of B extended reals -/
abbrev Vct (B : Nat) : Type := (⟨1, ![B]⟩ : Shape).Idx → EReal

/-- rows of X against columns of W: entry (n, f) is the sum over k of X (n, k) * W (k, f) -/
def mm {A K C : Nat} (X : Mat A K) (W : Mat K C) : Mat A C :=
  fun i => ∑ k : Fin K, X (ix2 (i 0) k) * W (ix2 k (i 1))

theorem mm_apply {A K C : Nat} (X : Mat A K) (W : Mat K C) (n : Fin A) (f : Fin C) :
    mm X W (ix2 n f) = ∑ k : Fin K, X (ix2 n k) * W (ix2 k f) := rfl

/-- every row n multiplied by the entry (n, 0) of a one-column array -/
def scaleRows {A C : Nat} (H : Mat A C) (d : Mat A 1) : Mat A C :=
  fun i => H (ix2 (i 0) (i 1)) * d (ix2 (i 0) 0)

theorem scaleRows_apply {A C : Nat} (H : Mat A C) (d : Mat A 1) (n : Fin A) (f : Fin C) :
    scaleRows H d (ix2 n f) = H (ix2 n f) * d (ix2 n 0) := rfl

/-- the layer's nonlinearity: max (d n * (agg (n, k) + h (n, k) * d n) + b k, 0) -/
def combine {A C : Nat} (agg h : Mat A C) (d : Mat A 1) (b : Vct C) : Mat A C :=
  fun i => max (d (ix2 (i 0) 0) * (agg (ix2 (i 0) (i 1)) + h (ix2 (i 0) (i 1)) * d (ix2 (i 0) 0)) + b (ix1 (i 1))) 0

theorem combine_apply {A C : Nat} (agg h : Mat A C) (d : Mat A 1) (b : Vct C) (n : Fin A) (k : Fin C) :
    combine agg h d b (ix2 n k) = max (d (ix2 n 0) * (agg (ix2 n k) + h (ix2 n k) * d (ix2 n 0)) + b (ix1 k)) 0 := rfl

/-- a bias vector added to every row -/
def addRow {A C : Nat} (X : Mat A C) (b : Vct C) : Mat A C :=
  fun i => X (ix2 (i 0) (i 1)) + b (ix1 (i 1))

theorem addRow_apply {A C : Nat} (X : Mat A C) (b : Vct C) (n : Fin A) (f : Fin C) :
    addRow X b (ix2 n f) = X (ix2 n f) + b (ix1 f) := rfl

end Cert.Graph

end
-- ==== Proof.GraphLaw.lean ====
/-
  One layer of the graph convolution with self-loops, in the two arrangements the two programs use, on the extended
  reals.  H : [N, C] are the node features after the layer's linear map, d : [N] the per-node scale
  (count of incoming edges + 1)^(-1/2), b : [C] the bias.  Edge e reads node s e (its source word, wrapped and
  clamped into [0, N-1]) and lands on node n when its target word reads n.
    node-side   K (n, f) = max (d n * ((0 + sum over edges landing on n of (H (s e, f) * d (s e))) + H (n, f) * d n) + b f, 0)
    edge-side   R (n, f) = max (((0 + sum over edges landing on n of H (s e, f) * (d (s e) * d (t e))) + H (n, f) * (d n * d n)) + b f, 0)
  where t e is the target word wrapped and clamped, which is n for an edge landing on n.  The outer factor d n moves
  inside the finite sum only because every entry is a real number: on the extended reals a product does not
  distribute over a sum in general.  The scale d is real because a count plus one is a positive real.
-/
import Idealize.ShloMosaic.PureOps.Ideal
import Idealize.ShloMosaic.PureOps.Ideal.Laws
import Idealize.ShloMosaic.Lib.ValueIdx
import Idealize.ShloMosaic.Lib.Pipeline.Value
import proofs.«120913_j71536975282839_2_alg».proof.Proof.LibGraphLayer
import proofs.«120913_j71536975282839_2_alg».proof.Proof.LibDegScale
import proofs.«120913_j71536975282839_2_alg».proof.Proof.GraphIdx

noncomputable section

open scoped BigOperators

namespace Cert.GraphLaw

open Idealize.ShloMosaic Idealize.ShloMosaic.ValueIdx Cert.LibRealEntries Cert.ScatterGather Cert.VecGather
  Cert.VecScatter Cert.Layer Cert.Graph

section
variable {N E C : Nat}
  (wfS : ScatterDims.WF ⟨2, ![N, C]⟩ ⟨2, ![E, 1]⟩ ⟨2, ![E, C]⟩ [1] [0] [0] 1)
  (wfG : GatherDims.WF ⟨2, ![N, C]⟩ ⟨2, ![E, 1]⟩ ⟨2, ![E, C]⟩ [1] [0] [] [0] [] 1 ![1, C])
  (wfV : GatherDims.WF ⟨1, ![N]⟩ ⟨2, ![E, 1]⟩ ⟨1, ![E]⟩ [] [0] [] [0] [] 1 ![1])
  (hN1 : (⟨1, ![N]⟩ : Shape).BroadcastsInDim ⟨2, ![N, 1]⟩ (![0] : Fin 1 → Fin (⟨2, ![N, 1]⟩ : Shape).rank))
  (hNC : (⟨2, ![N, 1]⟩ : Shape).BroadcastsInDim ⟨2, ![N, C]⟩ (![0, 1] : Fin 2 → Fin (⟨2, ![N, C]⟩ : Shape).rank))
  (h0NC : (⟨0, ![]⟩ : Shape).BroadcastsInDim ⟨2, ![N, C]⟩ (![] : Fin 0 → Fin (⟨2, ![N, C]⟩ : Shape).rank))
  (hE1 : (⟨1, ![E]⟩ : Shape).BroadcastsInDim ⟨2, ![E, 1]⟩ (![0] : Fin 1 → Fin (⟨2, ![E, 1]⟩ : Shape).rank))
  (hEC : (⟨2, ![E, 1]⟩ : Shape).BroadcastsInDim ⟨2, ![E, C]⟩ (![0, 1] : Fin 2 → Fin (⟨2, ![E, C]⟩ : Shape).rank))
  (hC1 : (⟨1, ![C]⟩ : Shape).BroadcastsInDim ⟨2, ![1, C]⟩ (![1] : Fin 1 → Fin (⟨2, ![1, C]⟩ : Shape).rank))
  (h1C : (⟨2, ![1, C]⟩ : Shape).BroadcastsInDim ⟨2, ![N, C]⟩ (![0, 1] : Fin 2 → Fin (⟨2, ![N, C]⟩ : Shape).rank))

/-- the aggregate of already scaled node features: rows gathered at the source words, added into the rows the
    target words name, from zero -/
def aggK (Hs : FVec Ideal ⟨2, ![N, C]⟩ .f32) (srcW dst : IVec ⟨1, ![E]⟩ 32) : FVec Ideal ⟨2, ![N, C]⟩ .f32 :=
  Host.scatterAdd (rowScatter N E C wfS)
    (broadcastInDim ⟨2, ![N, C]⟩ ![] h0NC (constant (F := Ideal) ⟨0, ![]⟩ .f32 0x00000000#32))
    (broadcastInDim ⟨2, ![E, 1]⟩ ![0] hE1 dst)
    (Host.gather (rowGather N E C wfG) Hs (broadcastInDim ⟨2, ![E, 1]⟩ ![0] hE1 srcW))

/-- the aggregate read at (n, f) -/
theorem aggK_apply (hN : 0 < N) (Hs : FVec Ideal ⟨2, ![N, C]⟩ .f32) (srcW dst : IVec ⟨1, ![E]⟩ 32) (n : Fin N) (f : Fin C) :
    aggK wfS wfG h0NC hE1 Hs srcW dst (ix2 n f)
      = 0 + ∑ e ∈ Finset.univ.filter (fun e : Fin E => (dst (ix1 e)).toInt = (n.val : ℤ)),
          Hs (ix2 (clampIdx hN (srcW (ix1 e))) f) := by
  unfold aggK
  rw [scatterAdd_col_apply, zero_splat_apply]
  refine congrArg (fun t => 0 + t) (Finset.sum_congr rfl fun e _ => ?_)
  rw [gather_col_apply wfG hE1 hN]

/-- the edge-side arrangement of the layer, nonlinearity included -/
def layerRef (H : FVec Ideal ⟨2, ![N, C]⟩ .f32) (d : FVec Ideal ⟨1, ![N]⟩ .f32) (srcW dstW dst : IVec ⟨1, ![E]⟩ 32)
    (b : FVec Ideal ⟨1, ![C]⟩ .f32) : FVec Ideal ⟨2, ![N, C]⟩ .f32 :=
  maximumf
    (addf
      (addf
        (Host.scatterAdd (rowScatter N E C wfS)
          (broadcastInDim ⟨2, ![N, C]⟩ ![] h0NC (constant (F := Ideal) ⟨0, ![]⟩ .f32 0x00000000#32))
          (broadcastInDim ⟨2, ![E, 1]⟩ ![0] hE1 dst)
          (mulf (Host.gather (rowGather N E C wfG) H (broadcastInDim ⟨2, ![E, 1]⟩ ![0] hE1 srcW))
            (broadcastInDim ⟨2, ![E, C]⟩ ![0, 1] hEC (broadcastInDim ⟨2, ![E, 1]⟩ ![0] hE1
              (mulf (Host.gather (vecGather N E wfV) d (broadcastInDim ⟨2, ![E, 1]⟩ ![0] hE1 srcW))
                    (Host.gather (vecGather N E wfV) d (broadcastInDim ⟨2, ![E, 1]⟩ ![0] hE1 dstW)))))))
        (mulf H (broadcastInDim ⟨2, ![N, C]⟩ ![0, 1] hNC (broadcastInDim ⟨2, ![N, 1]⟩ ![0] hN1 (mulf d d)))))
      (broadcastInDim ⟨2, ![N, C]⟩ ![0, 1] h1C (broadcastInDim ⟨2, ![1, C]⟩ ![1] hC1 b)))
    (broadcastInDim ⟨2, ![N, C]⟩ ![] h0NC (constant (F := Ideal) ⟨0, ![]⟩ .f32 0x00000000#32))

/-- the edge-side arrangement read at (n, f) -/
theorem layerRef_apply (hN : 0 < N) (H : FVec Ideal ⟨2, ![N, C]⟩ .f32) (d : FVec Ideal ⟨1, ![N]⟩ .f32)
    (srcW dstW dst : IVec ⟨1, ![E]⟩ 32) (b : FVec Ideal ⟨1, ![C]⟩ .f32) (n : Fin N) (f : Fin C) :
    layerRef wfS wfG wfV hN1 hNC h0NC hE1 hEC hC1 h1C H d srcW dstW dst b (ix2 n f)
      = max (((0 + ∑ e ∈ Finset.univ.filter (fun e : Fin E => (dst (ix1 e)).toInt = (n.val : ℤ)),
                H (ix2 (clampIdx hN (srcW (ix1 e))) f)
                  * (d (ix1 (clampIdx hN (srcW (ix1 e)))) * d (ix1 (clampIdx hN (dstW (ix1 e))))))
              + H (ix2 n f) * (d (ix1 n) * d (ix1 n))) + b (ix1 f)) 0 := by
  unfold layerRef
  rw [maximumf_apply, zero_splat_apply, addf_apply, addf_apply, bc_rows_apply h1C, bc_row_apply hC1,
    scatterAdd_col_apply, zero_splat_apply, mulf_apply, bc_cols_apply hNC, bc_col_apply hN1, mulf_apply]
  refine congrArg (fun t => max (((0 + t) + H (ix2 n f) * (d (ix1 n) * d (ix1 n))) + b (ix1 f)) 0)
    (Finset.sum_congr rfl fun e _ => ?_)
  rw [mulf_apply, gather_col_apply wfG hE1 hN, bc_cols_apply hEC, bc_col_apply hE1, mulf_apply,
    gather_vcol_apply wfV hE1 hN, gather_vcol_apply wfV hE1 hN]

/-- THE LAW.  Over real features and a real scale, with the scale column d' holding d, and the wrapped target word
    of every edge landing on n reading n, the node-side arrangement is the edge-side one. -/
theorem layer_law (hN : 0 < N) (H : FVec Ideal ⟨2, ![N, C]⟩ .f32) (d : FVec Ideal ⟨1, ![N]⟩ .f32) (d' : Mat N 1)
    (hd' : ∀ n : Fin N, d' (ix2 n 0) = d (ix1 n)) (srcW dstW dst : IVec ⟨1, ![E]⟩ 32) (b : FVec Ideal ⟨1, ![C]⟩ .f32)
    (hH : ∀ (p : Fin N) (f : Fin C), IsReal (H (ix2 p f))) (hd : ∀ n : Fin N, IsReal (d (ix1 n)))
    (hcol : ∀ (e : Fin E) (n : Fin N), (dst (ix1 e)).toInt = (n.val : ℤ) → min (dstW (ix1 e)).toInt.toNat (N - 1) = n.val) :
    combine (aggK wfS wfG h0NC hE1 (scaleRows H d') srcW dst) H d' b
      = layerRef wfS wfG wfV hN1 hNC h0NC hE1 hEC hC1 h1C H d srcW dstW dst b := by
  funext i
  obtain ⟨n, f, rfl⟩ : ∃ (n : Fin N) (f : Fin C), i = ix2 n f := ⟨i 0, i 1, eq_ix2 i⟩
  rw [combine_apply, aggK_apply wfS wfG h0NC hE1 hN, layerRef_apply wfS wfG wfV hN1 hNC h0NC hE1 hEC hC1 h1C hN, hd' n]
  refine congrArg (fun t => max (t + b (ix1 f)) 0) ?_
  choose Hr hHr using hH
  choose dr hdr using hd
  have hK : ∀ e ∈ Finset.univ.filter (fun e : Fin E => (dst (ix1 e)).toInt = (n.val : ℤ)),
      scaleRows H d' (ix2 (clampIdx hN (srcW (ix1 e))) f)
        = ((Hr (clampIdx hN (srcW (ix1 e))) f * dr (clampIdx hN (srcW (ix1 e))) : ℝ) : EReal) := by
    intro e _
    rw [scaleRows_apply, hd', hHr, hdr, ← EReal.coe_mul]
  have hR : ∀ e ∈ Finset.univ.filter (fun e : Fin E => (dst (ix1 e)).toInt = (n.val : ℤ)),
      H (ix2 (clampIdx hN (srcW (ix1 e))) f)
          * (d (ix1 (clampIdx hN (srcW (ix1 e)))) * d (ix1 (clampIdx hN (dstW (ix1 e)))))
        = ((Hr (clampIdx hN (srcW (ix1 e))) f * (dr (clampIdx hN (srcW (ix1 e))) * dr n) : ℝ) : EReal) := by
    intro e he
    have hc : clampIdx hN (dstW (ix1 e)) = n := Fin.ext (hcol e n (Finset.mem_filter.mp he).2)
    rw [hc, hHr, hdr, hdr n, ← EReal.coe_mul, ← EReal.coe_mul]
  rw [Finset.sum_congr rfl hK, Finset.sum_congr rfl hR, coe_sum, coe_sum, zero_add, zero_add, hHr n f, hdr n]
  simp only [← EReal.coe_mul, ← EReal.coe_add]
  refine congrArg (fun r : ℝ => (r : EReal)) ?_
  rw [mul_add, Finset.mul_sum]
  refine congrArg₂ (· + ·) (Finset.sum_congr rfl fun e _ => by ring) (by ring)

/-- the layer's result is real where its inputs are -/
theorem layerRef_real (hN : 0 < N) (H : FVec Ideal ⟨2, ![N, C]⟩ .f32) (d : FVec Ideal ⟨1, ![N]⟩ .f32)
    (srcW dstW dst : IVec ⟨1, ![E]⟩ 32) (b : FVec Ideal ⟨1, ![C]⟩ .f32)
    (hH : ∀ (p : Fin N) (f : Fin C), IsReal (H (ix2 p f))) (hd : ∀ n : Fin N, IsReal (d (ix1 n)))
    (hb : ∀ f : Fin C, IsReal (b (ix1 f))) (n : Fin N) (f : Fin C) :
    IsReal (layerRef wfS wfG wfV hN1 hNC h0NC hE1 hEC hC1 h1C H d srcW dstW dst b (ix2 n f)) := by
  rw [layerRef_apply wfS wfG wfV hN1 hNC h0NC hE1 hEC hC1 h1C hN]
  exact ((((isReal_zero.add (IsReal.sum _ _ fun e _ => (hH _ _).mul ((hd _).mul (hd _)))).add
    ((hH n f).mul ((hd n).mul (hd n)))).add (hb f))).max isReal_zero

end

/-- a product of a real matrix with a real matrix is real -/
theorem mm_real {A K C : Nat} (X : Mat A K) (W : Mat K C) (hX : ∀ (n : Fin A) (k : Fin K), IsReal (X (ix2 n k)))
    (hW : ∀ (k : Fin K) (f : Fin C), IsReal (W (ix2 k f))) (n : Fin A) (f : Fin C) : IsReal (mm X W (ix2 n f)) := by
  rw [mm_apply]
  exact IsReal.sum _ _ fun k _ => (hX n k).mul (hW k f)

/-! ## The per-node scale -/

section
variable {N E : Nat}
  (wfVS : ScatterDims.WF ⟨1, ![N]⟩ ⟨2, ![E, 1]⟩ ⟨1, ![E]⟩ [] [0] [0] 1)
  (h0N : (⟨0, ![]⟩ : Shape).BroadcastsInDim ⟨1, ![N]⟩ (![] : Fin 0 → Fin (⟨1, ![N]⟩ : Shape).rank))
  (h0E : (⟨0, ![]⟩ : Shape).BroadcastsInDim ⟨1, ![E]⟩ (![] : Fin 0 → Fin (⟨1, ![E]⟩ : Shape).rank))
  (hE1 : (⟨1, ![E]⟩ : Shape).BroadcastsInDim ⟨2, ![E, 1]⟩ (![0] : Fin 1 → Fin (⟨2, ![E, 1]⟩ : Shape).rank))

/-- (count of edges landing on the node + 1)^(-1/2) -/
def dinv (dst : IVec ⟨1, ![E]⟩ 32) : FVec Ideal ⟨1, ![N]⟩ .f32 :=
  Host.rsqrt (addf (Cert.DegScale.deg wfVS h0N h0E hE1 dst)
    (broadcastInDim ⟨1, ![N]⟩ ![] h0N (constant (F := Ideal) ⟨0, ![]⟩ .f32 0x3F800000#32)))

/-- the count of edges landing on a node is a natural number -/
theorem deg_eq_card (dst : IVec ⟨1, ![E]⟩ 32) (n : Fin N) :
    Cert.DegScale.deg wfVS h0N h0E hE1 dst (ix1 n)
      = (((Finset.univ.filter (fun e : Fin E => (dst (ix1 e)).toInt = (n.val : ℤ))).card : ℝ) : EReal) := by
  show Ideal.hostScatterAdd (vecScatter N E wfVS) _ _ _ (ix1 n) = _
  rw [scatterAdd_vec_apply, Cert.DegScale.splat_apply, Ideal.ofBits_zero_f32, zero_add]
  have : ∀ e ∈ Finset.univ.filter (fun e : Fin E => ((broadcastInDim ⟨2, ![E, 1]⟩ ![0] hE1 dst) (ix2 e 0)).toInt = (n.val : ℤ)),
      broadcastInDim ⟨1, ![E]⟩ ![] h0E (constant (F := Ideal) ⟨0, ![]⟩ .f32 0x3F800000#32) (ix1 e) = (((1 : ℝ)) : EReal) := by
    intro e _
    rw [Cert.DegScale.splat_apply, ofBits_one]; rfl
  rw [Finset.sum_congr rfl this, coe_sum, Finset.sum_const, nsmul_eq_mul, mul_one]
  refine congrArg (fun s : Finset (Fin E) => ((s.card : ℝ) : EReal)) (Finset.filter_congr fun e _ => ?_)
  rw [bc_col_apply]

/-- the scale of every node is a real number -/
theorem dinv_real (dst : IVec ⟨1, ![E]⟩ 32) (n : Fin N) : IsReal (dinv wfVS h0N h0E hE1 dst (ix1 n)) := by
  show IsReal (Ideal.rsqrt (Cert.DegScale.deg wfVS h0N h0E hE1 dst (ix1 n)
    + broadcastInDim ⟨1, ![N]⟩ ![] h0N (constant (F := Ideal) ⟨0, ![]⟩ .f32 0x3F800000#32) (ix1 n)))
  rw [deg_eq_card, Cert.DegScale.splat_apply, ofBits_one, show (1 : EReal) = ((1 : ℝ) : EReal) from rfl, ← EReal.coe_add,
    Cert.LibEReal.rsqrt_coe _ (by positivity)]
  exact isReal_coe _

end

end Cert.GraphLaw

end
-- ==== Proof.RefValue.lean ====
/-
  What the reference computes, as one function of its arguments.  Its three matrix products are plain row-by-column
  sums; each of its two graph-convolution layers is the edge-side arrangement of the layer (features gathered at the
  wrapped source words, scaled per edge by the product of the two endpoint scales, added into the target rows, plus
  the self-loop term and the bias, then the maximum with zero); the per-node scale is (count of incoming edges + 1)
  to the power -1/2, computed twice by the same operations.  The result is the last product plus the output bias.
-/
import proofs.«120913_j71536975282839_2_alg».proof.Proof.Gen.ReferenceIdeal.Read
import proofs.«120913_j71536975282839_2_alg».proof.Proof.LibDotRows
import proofs.«120913_j71536975282839_2_alg».proof.Proof.LibLayout
import proofs.«120913_j71536975282839_2_alg».proof.Proof.GraphLaw

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Cert.Graph Cert.Layer

/-- the edge words of row 0 (sources) and row 1 (targets) of the edge array -/
abbrev srcOf (x1 : IVec S2x1600000 32) : IVec S1600000 32 := val_main_v1 (F := Ideal) x1
abbrev dstOf (x1 : IVec S2x1600000 32) : IVec S1600000 32 := val_main_v3 (F := Ideal) x1

/-- a negative word has the number of nodes added -/
def wrapOf (col : IVec S1600000 32) : IVec S1600000 32 :=
  select (cmpi .slt col (broadcastInDim S1600000 ![] bcast_S_S1600000 (constantI S_ 32 0#32)))
    (addi col (broadcastInDim S1600000 ![] bcast_S_S1600000 (constantI S_ 32 100000#32))) col

/-- the per-node scale -/
def scaleOf (x1 : IVec S2x1600000 32) : FVec Ideal S100000 .f32 :=
  Cert.GraphLaw.dinv (N := 100000) (E := 1600000) scatter_S100000_S1600000x1_S1600000_n_0_0_1_wf bcast_S_S100000 bcast_S_S1600000
    bcast_S1600000_S1600000x1_0 (dstOf x1)

/-- one layer: the edge-side arrangement over the reference's own dimension records -/
def layer (H : FVec Ideal S100000x128 .f32) (x1 : IVec S2x1600000 32) (b : FVec Ideal S128 .f32) : FVec Ideal S100000x128 .f32 :=
  Cert.GraphLaw.layerRef (N := 100000) (E := 1600000) (C := 128)
    scatter_S100000x128_S1600000x1_S1600000x128_1_0_0_1_wf gather_S100000x128_S1600000x1_S1600000x128_1_0_n_n_0_1_1128_wf
    gather_S100000_S1600000x1_S1600000_n_0_n_n_0_1_1_wf bcast_S100000_S100000x1_0 bcast_S100000x1_S100000x128_0_1
    bcast_S_S100000x128 bcast_S1600000_S1600000x1_0 bcast_S1600000x1_S1600000x128_0_1 bcast_S128_S1x128_1
    bcast_S1x128_S100000x128_0_1 H (scaleOf x1) (wrapOf (srcOf x1)) (wrapOf (dstOf x1)) (dstOf x1) b

/-- the aggregate of already scaled features along the edges, over the same dimension records: rows gathered at the
    wrapped source words, added into the rows the target words name -/
abbrev aggOf (Hs : FVec Ideal S100000x128 .f32) (src dst : IVec S1600000 32) : FVec Ideal S100000x128 .f32 :=
  Cert.GraphLaw.aggK (N := 100000) (E := 1600000) (C := 128)
    scatter_S100000x128_S1600000x1_S1600000x128_1_0_0_1_wf gather_S100000x128_S1600000x1_S1600000x128_1_0_n_n_0_1_1128_wf
    bcast_S_S100000x128 bcast_S1600000_S1600000x1_0 Hs (wrapOf src) dst

/-- a vector over the nodes laid out as a column reads, at (n, 0), its entry n -/
theorem col_apply (v : FVec Ideal S100000 .f32) (h : S100000.ShapeCasts S100000x1) (n : Fin 100000) :
    shapeCast S100000x1 v h (ix2 n 0) = v (ix1 n) := by
  rw [Cert.LibLayout.shapeCast_col_eq_broadcastInDim 100000 v h bcast_S100000_S100000x1_0, bc_col_apply]

/-- the whole reference -/
def out (x0 : FVec Ideal S100000x128 .f32) (x1 : IVec S2x1600000 32) (x2 : FVec Ideal S128x128 .f32) (x3 : FVec Ideal S128 .f32)
    (x4 : FVec Ideal S128x128 .f32) (x5 : FVec Ideal S128 .f32) (x6 : FVec Ideal S128x64 .f32) (x7 : FVec Ideal S64 .f32) :
    FVec Ideal S100000x64 .f32 :=
  addRow (mm (layer (mm (layer (mm x0 x2) x1 x3) x4) x1 x5) x6) x7

/-- the [100000, 128] by [128, 128] product is the row-by-column sum -/
theorem dot128_eq (X : FVec Ideal S100000x128 .f32) (W : FVec Ideal S128x128 .f32) :
    Host.dotGeneral dot_S100000x128_S128x128_S100000x128_1_0_0_1_n_n none X W = mm X W := by
  funext i
  obtain ⟨n, f, rfl⟩ : ∃ (n : Fin 100000) (f : Fin 128), i = ix2 n f := ⟨i 0, i 1, eq_ix2 i⟩
  exact Cert.LibDotRows.dotGeneral_ix2 dot_S100000x128_S128x128_S100000x128_1_0_0_1_n_n rfl rfl lhs_main_v4_0 lhs_main_v4_1
    rhs_main_v4_0 rhs_main_v4_1 none X W n f

/-- the [100000, 128] by [128, 64] product is the row-by-column sum -/
theorem dot64_eq (X : FVec Ideal S100000x128 .f32) (W : FVec Ideal S128x64 .f32) :
    Host.dotGeneral dot_S100000x128_S128x64_S100000x64_1_0_0_1_n_n none X W = mm X W := by
  funext i
  obtain ⟨n, f, rfl⟩ : ∃ (n : Fin 100000) (f : Fin 64), i = ix2 n f := ⟨i 0, i 1, eq_ix2 i⟩
  exact Cert.LibDotRows.dotGeneral_ix2 dot_S100000x128_S128x64_S100000x64_1_0_0_1_n_n rfl rfl lhs_main_v94_0 lhs_main_v94_1
    rhs_main_v94_0 rhs_main_v94_1 none X W n f

/-- the first layer's operations, from the first product on, are the layer -/
theorem v48_eq (x0 : FVec Ideal S100000x128 .f32) (x1 : IVec S2x1600000 32) (x2 : FVec Ideal S128x128 .f32) (x3 : FVec Ideal S128 .f32) :
    val_main_v48 (F := Ideal) x0 x1 x2 x3 = layer (val_main_v4 (F := Ideal) x0 x2) x1 x3 := by
  generalize hH : val_main_v4 (F := Ideal) x0 x2 = H
  unfold val_main_v48 val_main_v47 val_main_v44 val_main_v39 val_main_v36 val_main_v33 val_main_v35 val_main_v34 val_main_v26
    val_main_v18 val_main_v25 val_main_v17 val_main_v24 val_main_v16 val_main_v23 val_main_v13 val_main_v15 val_main_v20 val_main_v22
    val_main_v12 val_main_v14 val_main_v19 val_main_v21 val_main_c val_main_c_2 val_main_c_3 val_main_c_4 val_main_v32 val_main_v31
    val_main_v28 val_main_v30 val_main_v27 val_main_v29 val_main_c_5 val_main_c_6 val_main_v38 val_main_v37 val_main_cst_7
    val_main_v43 val_main_v42 val_main_v41 val_main_v40 val_main_v46 val_main_v45 val_main_call0_v0 val_main_call0_cst
    val_main_v11 val_main_v10 val_main_v8 val_main_v9 val_main_v7 val_main_v6 val_main_v5 val_main_cst val_main_cst_0 val_main_cst_1
  rw [hH]
  rfl

/-- the second layer's operations, from the second product on, are the layer -/
theorem v93_eq (x0 : FVec Ideal S100000x128 .f32) (x1 : IVec S2x1600000 32) (x2 : FVec Ideal S128x128 .f32) (x3 : FVec Ideal S128 .f32)
    (x4 : FVec Ideal S128x128 .f32) (x5 : FVec Ideal S128 .f32) :
    val_main_v93 (F := Ideal) x0 x1 x2 x3 x4 x5 = layer (val_main_v49 (F := Ideal) x0 x1 x2 x3 x4) x1 x5 := by
  generalize hH : val_main_v49 (F := Ideal) x0 x1 x2 x3 x4 = H
  unfold val_main_v93 val_main_v92 val_main_v89 val_main_v84 val_main_v81 val_main_v78 val_main_v80 val_main_v79 val_main_v71
    val_main_v63 val_main_v70 val_main_v62 val_main_v69 val_main_v61 val_main_v68 val_main_v58 val_main_v60 val_main_v65 val_main_v67
    val_main_v57 val_main_v59 val_main_v64 val_main_v66 val_main_c_11 val_main_c_12 val_main_c_13 val_main_c_14 val_main_v77 val_main_v76
    val_main_v73 val_main_v75 val_main_v72 val_main_v74 val_main_c_15 val_main_c_16 val_main_v83 val_main_v82 val_main_cst_17
    val_main_v88 val_main_v87 val_main_v86 val_main_v85 val_main_v91 val_main_v90 val_main_call1_v0 val_main_call1_cst
    val_main_v56 val_main_v55 val_main_v53 val_main_v54 val_main_v52 val_main_v51 val_main_v50 val_main_cst_8 val_main_cst_9 val_main_cst_10
  rw [hH]
  rfl

theorem v4_eq (x0 : FVec Ideal S100000x128 .f32) (x2 : FVec Ideal S128x128 .f32) : val_main_v4 (F := Ideal) x0 x2 = mm x0 x2 := by
  unfold val_main_v4
  exact dot128_eq _ _

theorem v49_eq (x0 : FVec Ideal S100000x128 .f32) (x1 : IVec S2x1600000 32) (x2 : FVec Ideal S128x128 .f32) (x3 : FVec Ideal S128 .f32)
    (x4 : FVec Ideal S128x128 .f32) :
    val_main_v49 (F := Ideal) x0 x1 x2 x3 x4 = mm (layer (mm x0 x2) x1 x3) x4 := by
  unfold val_main_v49
  rw [dot128_eq, v48_eq, v4_eq]

/-- THE REFERENCE'S RESULT is `out` of its arguments. -/
theorem out_eq (x0 : FVec Ideal S100000x128 .f32) (x1 : IVec S2x1600000 32) (x2 : FVec Ideal S128x128 .f32) (x3 : FVec Ideal S128 .f32)
    (x4 : FVec Ideal S128x128 .f32) (x5 : FVec Ideal S128 .f32) (x6 : FVec Ideal S128x64 .f32) (x7 : FVec Ideal S64 .f32) :
    val_main_v97 (F := Ideal) x0 x1 x2 x3 x4 x5 x6 x7 = out x0 x1 x2 x3 x4 x5 x6 x7 := by
  funext i
  obtain ⟨n, f, rfl⟩ : ∃ (n : Fin 100000) (f : Fin 64), i = ix2 n f := ⟨i 0, i 1, eq_ix2 i⟩
  unfold val_main_v97 val_main_v96 val_main_v95 val_main_v94 out
  rw [addf_apply, bc_rows_apply bcast_S1x64_S100000x64_0_1, bc_row_apply bcast_S64_S1x64_1, addRow_apply, dot64_eq, v93_eq, v49_eq]

end Cert.ReferenceIdeal.RefValue

end
-- ==== Proof.KernelHost.lean ====
/-
  What the kernel's three stretches of host operations leave in the buffers the regions read.  The first stretch
  splits the edge array into source and target words, computes the per-node scale (count of incoming edges + 1) to the
  power -1/2 and lays it out as a column, and changes the weights' format (no change on the extended reals).  The
  second and third stretch each gather the rows of a region's scaled output at the wrapped source words and add them
  into the rows the target words name: the aggregate the next region consumes.
-/
import proofs.«120913_j71536975282839_2_alg».proof.Proof.Gen.KernelIdeal.Frame
import Idealize.ShloMosaic.Lib.StableHlo.Run
import proofs.«120913_j71536975282839_2_alg».proof.Proof.RefValue

set_option maxRecDepth 16384

noncomputable section

namespace Cert.KernelIdeal.Host

open Idealize.ShloMosaic Idealize.ShloMosaic.TcCoe Idealize.ShloMosaic.Tactic Idealize.SL.Sem Idealize.ShloMosaic.ValueIdx
open Cert.KernelIdeal Cert.KernelIdeal.Gen Cert.Graph Cert.Layer
open Cert.ReferenceIdeal.RefValue (srcOf dstOf wrapOf scaleOf)

variable (m : (ℓ : Loc nD τ sig) → Buf (Elt Ideal) ℓ) (ρ : Dev nD → PrngReg) (c : Dev nD)

/-- the aggregate of scaled features along the edges -/
abbrev agg (Hs : FVec Ideal S100000x128 .f32) (src dst : IVec S1600000 32) : FVec Ideal S100000x128 .f32 :=
  Cert.ReferenceIdeal.RefValue.aggOf Hs src dst

/-- the source words after the first stretch -/
theorem v1_eq : (W1 m ρ c (Proc.devRef .tc main_v1) : IVec S1600000 32) = srcOf (m ((c : Thread nD τ).loc main_arg1)) := by
  show StableHlo.after hostOps0 (W0 m ρ c) (Proc.devRef .tc main_v1) = _
  after_results
  rfl

/-- the target words after the first stretch -/
theorem v3_eq : (W1 m ρ c (Proc.devRef .tc main_v3) : IVec S1600000 32) = dstOf (m ((c : Thread nD τ).loc main_arg1)) := by
  show StableHlo.after hostOps0 (W0 m ρ c) (Proc.devRef .tc main_v3) = _
  after_results
  rfl

/-- the scale column after the first stretch is the per-node scale laid out as a column -/
theorem v11_eq : (W1 m ρ c (Proc.devRef .tc main_v11) : FVec Ideal S100000x1 .f32)
    = shapeCast S100000x1 (scaleOf (m ((c : Thread nD τ).loc main_arg1))) shapeCasts_S100000_S100000x1 := by
  show StableHlo.after hostOps0 (W0 m ρ c) (Proc.devRef .tc main_v11) = _
  after_results
  rfl

/-- entry (n, 0) of the scale column is node n's scale -/
theorem v11_apply (n : Fin 100000) : (W1 m ρ c (Proc.devRef .tc main_v11) : FVec Ideal S100000x1 .f32) (ix2 n 0)
    = scaleOf (m ((c : Thread nD τ).loc main_arg1)) (ix1 n) := by
  rw [v11_eq]
  exact Cert.ReferenceIdeal.RefValue.col_apply _ _ n

/-- the weights in their working format are the weights -/
theorem v12_eq : (W1 m ρ c (Proc.devRef .tc main_v12) : FVec Ideal S128x128 .bf16) = m ((c : Thread nD τ).loc main_arg2) := by
  show StableHlo.after hostOps0 (W0 m ρ c) (Proc.devRef .tc main_v12) = _
  after_results
  rfl
theorem v13_eq : (W1 m ρ c (Proc.devRef .tc main_v13) : FVec Ideal S128x128 .bf16) = m ((c : Thread nD τ).loc main_arg4) := by
  show StableHlo.after hostOps0 (W0 m ρ c) (Proc.devRef .tc main_v13) = _
  after_results
  rfl
theorem v14_eq : (W1 m ρ c (Proc.devRef .tc main_v14) : FVec Ideal S128x64 .bf16) = m ((c : Thread nD τ).loc main_arg6) := by
  show StableHlo.after hostOps0 (W0 m ρ c) (Proc.devRef .tc main_v14) = _
  after_results
  rfl

/-- the second stretch leaves the aggregate of region 0's scaled output -/
theorem v25_eq : (W3 m ρ c (Proc.devRef .tc main_v25) : FVec Ideal S100000x128 .f32)
    = agg (W2 m ρ c (Proc.devRef .tc main_v15_1)) (W2 m ρ c (Proc.devRef .tc main_v1)) (W2 m ρ c (Proc.devRef .tc main_v3)) := by
  show StableHlo.after hostOps1 (W2 m ρ c) (Proc.devRef .tc main_v25) = _
  after_results
  rfl

/-- the third stretch leaves the aggregate of region 1's scaled output -/
theorem v36_eq : (W5 m ρ c (Proc.devRef .tc main_v36) : FVec Ideal S100000x128 .f32)
    = agg (W4 m ρ c (Proc.devRef .tc main_v26_1)) (W4 m ρ c (Proc.devRef .tc main_v1)) (W4 m ρ c (Proc.devRef .tc main_v3)) := by
  show StableHlo.after hostOps2 (W4 m ρ c) (Proc.devRef .tc main_v36) = _
  after_results
  rfl

end Cert.KernelIdeal.Host

end
-- ==== Proof.LibMatmulRows.lean ====
/-
  A plain matrix product into a zero accumulator, read at a row and a column.

  For dimension numbers that contract the left operand's axis 1 against the right operand's axis 0, with no batch axis,
  the product of an [M, K] and a [K, N] array into the zero splat reads at (p, c) as the sum over a < K of
  l(p, a) · r(a, c): the product's sum over the contraction shape's indices, re-indexed through that shape's one axis.
-/
import Idealize.ShloMosaic.PureOps.Ideal.Laws
import Idealize.ShloMosaic.Lib.ValueIdx

noncomputable section

namespace Cert.LibMatmulRows

open Idealize.ShloMosaic Idealize.ShloMosaic.ValueIdx

/-- The product into the zero accumulator at (p, c), from the four facts that say which operand index the dimension
    numbers read at an output index and a contraction index. -/
theorem matmul_zero_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ a : Fin K, l (ix2 p a) * r (ix2 a c) := by
  show FloatOps.matmul d prec l r (constant ⟨2, ![M, N]⟩ .f32 0x00000000#32) (ix2 p c) = _
  rw [Ideal.matmul_constant_zero_apply, ← Equiv.sum_comp (contrEquiv1 d K hr hs).symm]
  refine Finset.sum_congr rfl fun a _ => ?_
  have hk := contrEquiv1_symm_val d K hr hs a
  have el : d.lhsIdx (ix2 p c) ((contrEquiv1 d K hr hs).symm a) = ix2 p a := funext fun x => Fin.ext (by
    match x with
    | ⟨0, _⟩ => exact hl0 _ _
    | ⟨1, _⟩ => exact (hl1 _ _).trans hk)
  have er : d.rhsIdx (ix2 p c) ((contrEquiv1 d K hr hs).symm a) = ix2 a c := funext fun x => Fin.ext (by
    match x with
    | ⟨0, _⟩ => exact (hr0 _ _).trans hk
    | ⟨1, _⟩ => exact hr1 _ _)
  rw [el, er]

end Cert.LibMatmulRows

end
-- ==== Proof.LibKeepdims.lean ====
/-
  Two layout operations read at an index given by coordinates, for the column that a sum over the LAST axis with
  `keepdims=True` leaves: a vector `[a]` re-shaped to a column `[a, 1]`, and a column `[a, 1]` broadcast along its
  unit axis to a matrix `[a, b]`. (The row forms `[a] → [1, a]` and `[1, b] → [a, b]` are in the library's
  Lib/ValueLayout.lean; these are their transposes, for any extents and any element type.)
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to a column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is kept
    (also when `a = 1`, where it can only be `0`), the coordinate on the unit axis is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Region0Value.lean ====
/-
  The first node-tiled stage of the two-layer graph convolution, read entry by entry on the extended reals.

  The stage walks the 100000 nodes in 20 blocks of 5000 rows.  At a block it multiplies the block's rows of the feature
  array X into the whole weight matrix W, which gives rows n of X·W for the nodes n of the block, and it rescales row n by
  the entry (n, 0) of a one-column array d.  Entry (p, q) of what a block's product holds is the sum over k of
  x (p, k) · w (k, q), where x is the block of X and w is W; row p of block number t is row t · 5000 + p of X, and of d.
  Every row belongs to exactly one block (row r to block r / 5000), so after the last block the two result arrays hold
  X·W and the row-rescaled X·W.
-/
import proofs.«120913_j71536975282839_2_alg».proof.Proof.Gen.KernelIdeal.Frame
import proofs.«120913_j71536975282839_2_alg».proof.Proof.GraphIdx
import proofs.«120913_j71536975282839_2_alg».proof.Proof.LibMatmulRows
import proofs.«120913_j71536975282839_2_alg».proof.Proof.LibKeepdims
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)
open Idealize.ShloMosaic.ValueIdx

namespace Cert.KernelIdeal.Region0

open Cert.KernelIdeal Cert.KernelIdeal.Gen

/-! ## The block product at a row and a column -/

/-- The left operand of the [5000,128] by [128,128] product is read in the output's row … -/
theorem dot_lhs0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
/-- … and at the contraction index in its column; -/
theorem dot_lhs1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contraction index in its row … -/
theorem dot_rhs0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and in the output's column. -/
theorem dot_rhs1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- Entry (p, q) of a block's product: the sum over k of x (p, k) · w (k, q) (the change of format of x is the identity
    on extended reals). -/
theorem pay1_apply (x0 : FVec Ideal S5000x128 .f32) (x1 : FVec Ideal S128x128 .bf16) (p : Fin 5000) (q : Fin 128) :
    k0_pay1 (F := Ideal) x0 x1 (ix2 p q) = ∑ k : Fin 128, x0 (ix2 p k) * x1 (ix2 k q) := by
  unfold k0_pay1
  rw [shapeCast_self]
  exact Cert.LibMatmulRows.matmul_zero_ix2 (M := 5000) (K := 128) (N := 128) dot_S5000x128_S128x128_S5000x128_1_0_0_1_n_n rfl rfl
    dot_lhs0 dot_lhs1 dot_rhs0 dot_rhs1 none (truncf .bf16 x0 bitsLt_bf16_f32) x1 p q

/-- Entry (p, q) of a block's rescaled product: the product's entry times the column's entry in row p. -/
theorem pay2_apply (x0 : FVec Ideal S5000x128 .f32) (x1 : FVec Ideal S128x128 .bf16) (x2 : FVec Ideal S5000x1 .f32) (p : Fin 5000) (q : Fin 128) :
    k0_pay2 (F := Ideal) x0 x1 x2 (ix2 p q) = (∑ k : Fin 128, x0 (ix2 p k) * x1 (ix2 k q)) * x2 (ix2 p (0 : Fin 1)) := by
  unfold k0_pay2
  rw [mulf_apply, pay1_apply, shapeCast_self, Cert.LibKeepdims.broadcastTo_a1_ab_apply]

example : Pipeline.arrRef spec0 1 = main_v12 := rfl
example : Pipeline.arrRef spec0 3 = main_v15_0 := rfl

/-! ## A block's rows in the arrays -/

variable (V : (c : Dev nD) → (b : Ref sig .tc) → Buf (Elt Ideal) ((c : Thread nD τ).loc b))

theorem hz : (![0, 0] : Fin 2 → Nat) = fun _ => 0 := funext fun a => by fin_cases a <;> rfl

/-- The block numbers over the grid: at point t the row-tiled windows (X, d and the two results) are at block t of the
    rows and block 0 of the columns; the weight's one block is at (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- A block's product is the rows of X·W it stands for: if row p of the block x is row n of X and the block w is W,
    entry (p, q) of the block's product is entry (n, q) of X·W. -/
theorem pay1_eq_mm (X : Cert.Graph.Mat 100000 128) (W : Cert.Graph.Mat 128 128)
    (x0 : FVec Ideal S5000x128 .f32) (x1 : FVec Ideal S128x128 .bf16) (p : Fin 5000) (q : Fin 128) (n : Fin 100000)
    (i : (⟨2, ![100000, 128]⟩ : Shape).Idx) (hi : i = ix2 n q)
    (h0 : ∀ k : Fin 128, x0 (ix2 p k) = X (ix2 n k)) (h1 : ∀ k : Fin 128, x1 (ix2 k q) = W (ix2 k q)) :
    k0_pay1 (F := Ideal) x0 x1 (ix2 p q) = Cert.Graph.mm X W i := by
  subst hi
  rw [pay1_apply, Cert.Graph.mm_apply]
  exact Finset.sum_congr rfl fun k _ => by rw [h0 k, h1 k]

/-- What point t writes back to the first result is block t of X·W. -/
theorem flushed3_eq (c : Dev nD) (t : Fin cfg0.N) :
    (dat0 (F := Ideal) V c).flushed 3 t
      = ((cfg0.win 3).blk t).view.read (Elt Ideal) (Cert.Graph.mm (V c main_arg0) (V c main_v12)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz]
  have ht : t.val < 20 := lt_of_lt_of_eq t.isLt (show cfg0.N = 20 from N_0)
  obtain ⟨e00, e01, e10, e11, -, -, e30, e31, -, -⟩ := idx_facts t
  funext j
  obtain ⟨p, q, rfl⟩ : ∃ (p : Fin 5000) (q : Fin 128), j = ix2 p q := ⟨j 0, j 1, eq_ix2 j⟩
  have hp : p.val < 5000 := p.isLt
  have hq : q.val < 128 := q.isLt
  refine pay1_eq_mm _ _ _ _ p q ⟨t.val * 5000 + p.val, by omega⟩ _ ?_ ?_ ?_
  · funext a; apply Fin.ext
    match a with
    | ⟨0, _⟩ => show win0_3.index t (0 : Fin 2) * 5000 + 1 * p.val = t.val * 5000 + p.val; rw [e30]; omega
    | ⟨1, _⟩ => show win0_3.index t (1 : Fin 2) * 128 + 1 * q.val = q.val; rw [e31]; omega
  · intro k
    show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  · intro k
    show V c main_v12 (((cfg0.win 1).blk t).view.emb (ix2 k q)) = V c main_v12 _
    refine congrArg _ (funext fun a => Fin.ext ?_)
    match a with
    | ⟨0, _⟩ => show win0_1.index t (0 : Fin 2) * 128 + 1 * k.val = k.val; rw [e10]; omega
    | ⟨1, _⟩ => show win0_1.index t (1 : Fin 2) * 128 + 1 * q.val = q.val; rw [e11]; omega

/-- A block's rescaled product is the rows of the row-rescaled X·W it stands for: if moreover row p of the column block
    is row n of d, entry (p, q) is entry (n, q) of X·W times d (n, 0). -/
theorem pay2_eq_scaled (X : Cert.Graph.Mat 100000 128) (W : Cert.Graph.Mat 128 128) (d : Cert.Graph.Mat 100000 1)
    (x0 : FVec Ideal S5000x128 .f32) (x1 : FVec Ideal S128x128 .bf16) (x2 : FVec Ideal S5000x1 .f32)
    (p : Fin 5000) (q : Fin 128) (n : Fin 100000)
    (i : (⟨2, ![100000, 128]⟩ : Shape).Idx) (hi : i = ix2 n q)
    (h0 : ∀ k : Fin 128, x0 (ix2 p k) = X (ix2 n k)) (h1 : ∀ k : Fin 128, x1 (ix2 k q) = W (ix2 k q))
    (h2 : x2 (ix2 p (0 : Fin 1)) = d (ix2 n (0 : Fin 1))) :
    k0_pay2 (F := Ideal) x0 x1 x2 (ix2 p q) = Cert.Graph.scaleRows (Cert.Graph.mm X W) d i := by
  subst hi
  rw [pay2_apply, Cert.Graph.scaleRows_apply, Cert.Graph.mm_apply, h2]
  exact congrArg (· * d (ix2 n (0 : Fin 1))) (Finset.sum_congr rfl fun k _ => by rw [h0 k, h1 k])

/-- What point t writes back to the second result is block t of the row-rescaled X·W. -/
theorem flushed4_eq (c : Dev nD) (t : Fin cfg0.N) :
    (dat0 (F := Ideal) V c).flushed 4 t
      = ((cfg0.win 4).blk t).view.read (Elt Ideal)
          (Cert.Graph.scaleRows (Cert.Graph.mm (V c main_arg0) (V c main_v12)) (V c main_v11)) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz, View.ld_unit_zero (S := S5000x1) hz]
  have ht : t.val < 20 := lt_of_lt_of_eq t.isLt (show cfg0.N = 20 from N_0)
  obtain ⟨e00, e01, e10, e11, e20, e21, -, -, e40, e41⟩ := idx_facts t
  funext j
  obtain ⟨p, q, rfl⟩ : ∃ (p : Fin 5000) (q : Fin 128), j = ix2 p q := ⟨j 0, j 1, eq_ix2 j⟩
  have hp : p.val < 5000 := p.isLt
  have hq : q.val < 128 := q.isLt
  refine pay2_eq_scaled _ _ _ _ _ _ p q ⟨t.val * 5000 + p.val, by omega⟩ _ ?_ ?_ ?_ ?_
  · funext a; apply Fin.ext
    match a with
    | ⟨0, _⟩ => show win0_4.index t (0 : Fin 2) * 5000 + 1 * p.val = t.val * 5000 + p.val; rw [e40]; omega
    | ⟨1, _⟩ => show win0_4.index t (1 : Fin 2) * 128 + 1 * q.val = q.val; rw [e41]; omega
  · intro k
    show V c main_arg0 (((cfg0.win 0).blk t).view.emb (ix2 p k)) = V c main_arg0 _
    refine congrArg _ (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 128 + 1 * k.val = k.val; rw [e01]; omega
  · intro k
    show V c main_v12 (((cfg0.win 1).blk t).view.emb (ix2 k q)) = V c main_v12 _
    refine congrArg _ (funext fun a => Fin.ext ?_)
    match a with
    | ⟨0, _⟩ => show win0_1.index t (0 : Fin 2) * 128 + 1 * k.val = k.val; rw [e10]; omega
    | ⟨1, _⟩ => show win0_1.index t (1 : Fin 2) * 128 + 1 * q.val = q.val; rw [e11]; omega
  · show V c main_v11 (((cfg0.win 2).blk t).view.emb (ix2 p (0 : Fin 1))) = V c main_v11 _
    refine congrArg _ (funext fun a => Fin.ext ?_)
    match a with
    | ⟨0, _⟩ => show win0_2.index t (0 : Fin 2) * 5000 + 1 * p.val = t.val * 5000 + p.val; rw [e20]; omega
    | ⟨1, _⟩ => show win0_2.index t (1 : Fin 2) * 1 + 1 * (0 : Fin 1).val = (0 : Fin 1).val; rw [e21]; rfl

/-! ## From the blocks to the arrays -/

/-- A row-and-column index of a result array is in point t's block iff each coordinate is in the block's range. -/
theorem mem_blk3 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v15_0).slice (win0_3.rect t)).set ↔ _
  rw [View.set_slice_whole, Rect.mem_set_unit]
  exact Iff.rfl

theorem mem_blk4 (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v15_1).slice (win0_4.rect t)).set ↔ _
  rw [View.set_slice_whole, Rect.mem_set_unit]
  exact Iff.rfl

/-- Row r of the first result is in the block of point r / 5000, which writes it back. -/
theorem cover3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have hd : (i 0).val / 5000 < cfg0.N := by rw [hN]; omega
  obtain ⟨-, -, -, -, -, -, e30, e31, -, -⟩ := idx_facts ⟨(i 0).val / 5000, hd⟩
  refine ⟨⟨(i 0).val / 5000, hd⟩, flush0_3 _, ?_⟩
  rw [mem_blk3]
  intro a
  match a with
  | ⟨0, _⟩ =>
    show win0_3.index ⟨(i 0).val / 5000, hd⟩ (0 : Fin 2) * 5000 ≤ (i 0).val
      ∧ (i 0).val < win0_3.index ⟨(i 0).val / 5000, hd⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hd⟩ (1 : Fin 2) * 128 ≤ (i 1).val
      ∧ (i 1).val < win0_3.index ⟨(i 0).val / 5000, hd⟩ (1 : Fin 2) * 128 + 128
    rw [e31]; omega

/-- And so for the second result. -/
theorem cover4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : cfg0.N = 20 := N_0
  have hd : (i 0).val / 5000 < cfg0.N := by rw [hN]; omega
  obtain ⟨-, -, -, -, -, -, -, -, e40, e41⟩ := idx_facts ⟨(i 0).val / 5000, hd⟩
  refine ⟨⟨(i 0).val / 5000, hd⟩, flush0_4 _, ?_⟩
  rw [mem_blk4]
  intro a
  match a with
  | ⟨0, _⟩ =>
    show win0_4.index ⟨(i 0).val / 5000, hd⟩ (0 : Fin 2) * 5000 ≤ (i 0).val
      ∧ (i 0).val < win0_4.index ⟨(i 0).val / 5000, hd⟩ (0 : Fin 2) * 5000 + 5000
    rw [e40]; show (i 0).val / 5000 * 5000 ≤ (i 0).val ∧ (i 0).val < (i 0).val / 5000 * 5000 + 5000; omega
  | ⟨1, _⟩ =>
    show win0_4.index ⟨(i 0).val / 5000, hd⟩ (1 : Fin 2) * 128 ≤ (i 1).val
      ∧ (i 1).val < win0_4.index ⟨(i 0).val / 5000, hd⟩ (1 : Fin 2) * 128 + 128
    rw [e41]; omega

/-- THE FIRST RESULT after the last point is X·W, for any contents V the stage is entered with. -/
theorem arr3 (c : Dev nD) :
    (dat0 (F := Ideal) V c).arrAt 3 cfg0.N = Cert.Graph.mm (V c main_arg0) (V c main_v12) :=
  (dat0 (F := Ideal) V c).arrAt_eq_of_cover 3 _ (fun t _ => flushed3_eq V c t) cover3

/-- THE SECOND RESULT after the last point is X·W with row n multiplied by d (n, 0). -/
theorem arr4 (c : Dev nD) :
    (dat0 (F := Ideal) V c).arrAt 4 cfg0.N
      = Cert.Graph.scaleRows (Cert.Graph.mm (V c main_arg0) (V c main_v12)) (V c main_v11) :=
  (dat0 (F := Ideal) V c).arrAt_eq_of_cover 4 _ (fun t _ => flushed4_eq V c t) cover4

end Cert.KernelIdeal.Region0

end
-- ==== Proof.Region1Payload.lean ====
/-
  One block of the layer, entry by entry.  The block's body takes a column of scales d [5000, 1], two blocks
  agg and h [5000, 128], a bias b [128] and a weight W [128, 128], forms  x (p, k) = max (d p * (agg (p, k) +
  h (p, k) * d p) + b k, 0)  and multiplies x into W.  Read at row p and column q the product is the sum over k
  of x (p, k) * W (k, q); the second result is that sum times d p.
-/
import proofs.«120913_j71536975282839_2_alg».proof.Proof.Gen.KernelIdeal.Skeleton
import proofs.«120913_j71536975282839_2_alg».proof.Proof.LibMatmulRows
import proofs.«120913_j71536975282839_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region1

open Cert.KernelIdeal Cert.KernelIdeal.Gen Idealize.ShloMosaic Idealize.ShloMosaic.ValueIdx

/-- the product's dimension numbers: rows of the left operand against columns of the right one -/
abbrev dims : DotDims S5000x128 S128x128 S5000x128 := dot_S5000x128_S128x128_S5000x128_1_0_0_1_n_n

theorem dims_lhs0 (i : S5000x128.Idx) (q : dims.contr.Idx) : (dims.lhsIdx i q 0).val = (i 0).val := by
  unfold DotDims.lhsIdx
  rw [dif_neg (show ¬(0 : Fin S5000x128.rank) ∈ dims.lhsBatch by decide),
    dif_pos (show (0 : Fin S5000x128.rank) ∈ dims.lhsNonContracting by decide)]
  rfl

theorem dims_lhs1 (i : S5000x128.Idx) (q : dims.contr.Idx) : (dims.lhsIdx i q 1).val = (q ⟨0, by decide⟩).val :=
  dims.lhsIdx_val_of_single rfl i q

theorem dims_rhs0 (i : S5000x128.Idx) (q : dims.contr.Idx) : (dims.rhsIdx i q 0).val = (q ⟨0, by decide⟩).val :=
  dims.rhsIdx_val_of_single rfl i q

theorem dims_rhs1 (i : S5000x128.Idx) (q : dims.contr.Idx) : (dims.rhsIdx i q 1).val = (i 1).val := by
  unfold DotDims.rhsIdx
  rw [dif_neg (show ¬(1 : Fin S128x128.rank) ∈ dims.rhsBatch by decide),
    dif_pos (show (1 : Fin S128x128.rank) ∈ dims.rhsNonContracting by decide)]
  rfl

/-- the scale column broadcast along the rows' entries reads the row's scale -/
theorem scale_apply (d : Vec Ideal S5000x1 .f32) (p : Fin 5000) (k : Fin 128) :
    broadcastTo S5000x128 (k1_pay1 (F := Ideal) d) broadcasts_S5000x1_S5000x128 (ix2 p k) = d (ix2 p (0 : Fin 1)) := by
  unfold k1_pay1
  rw [shapeCast_self]
  exact Cert.LibKeepdims.broadcastTo_a1_ab_apply d broadcasts_S5000x1_S5000x128 p k

/-- the bias laid out as one row and repeated down the block reads the column's bias -/
theorem bias_apply (b : Vec Ideal S128 .f32) (p : Fin 5000) (k : Fin 128) :
    broadcastTo S5000x128 (shapeCast S1x128 b shapeCasts_S128_S1x128) broadcasts_S1x128_S5000x128 (ix2 p k) = b (ix1 k) :=
  (broadcastTo_1b_ab_apply _ broadcasts_S1x128_S5000x128 p k).trans
    (shapeCast_a_1a_apply b shapeCasts_S128_S1x128 (0 : Fin 1) k)

/-- THE FIRST RESULT at row p, column q. -/
theorem pay2_apply (d : Vec Ideal S5000x1 .f32) (agg h : Vec Ideal S5000x128 .f32) (b : Vec Ideal S128 .f32)
    (W : Vec Ideal S128x128 .bf16) (p : Fin 5000) (q : Fin 128) :
    k1_pay2 (F := Ideal) d agg h b W (ix2 p q)
      = ∑ k : Fin 128, max (d (ix2 p (0 : Fin 1)) * (agg (ix2 p k) + h (ix2 p k) * d (ix2 p (0 : Fin 1))) + b (ix1 k)) 0
          * W (ix2 k q) := by
  unfold k1_pay2
  refine (Cert.LibMatmulRows.matmul_zero_ix2 dims rfl rfl dims_lhs0 dims_lhs1 dims_rhs0 dims_rhs1 none _ _ p q).trans ?_
  refine Finset.sum_congr rfl fun k _ => ?_
  rw [shapeCast_self W, truncf_apply, maximumf_apply, addf_apply, mulf_apply, addf_apply, mulf_apply, broadcast_apply,
    scale_apply, bias_apply, shapeCast_self agg, shapeCast_self h]
  show max _ (Ideal.ofBits .f32 0x00000000#32) * _ = _
  rw [Ideal.ofBits_zero_f32]

/-- THE SECOND RESULT at row p, column q: the first one times the row's scale. -/
theorem pay3_apply (d : Vec Ideal S5000x1 .f32) (agg h : Vec Ideal S5000x128 .f32) (b : Vec Ideal S128 .f32)
    (W : Vec Ideal S128x128 .bf16) (p : Fin 5000) (q : Fin 128) :
    k1_pay3 (F := Ideal) d agg h b W (ix2 p q)
      = (∑ k : Fin 128, max (d (ix2 p (0 : Fin 1)) * (agg (ix2 p k) + h (ix2 p k) * d (ix2 p (0 : Fin 1))) + b (ix1 k)) 0
          * W (ix2 k q)) * d (ix2 p (0 : Fin 1)) := by
  unfold k1_pay3
  rw [mulf_apply, scale_apply, pay2_apply]

end Cert.KernelIdeal.Region1

end
-- ==== Proof.Region1Value.lean ====
/-
  The layer's two result arrays, whole.  The 100000 rows are worked in 20 blocks of 5000; block t reads rows
  5000 t … 5000 t + 4999 of the aggregated array, of the features and of the scale column, the whole bias and the
  whole weight, and writes the same rows of the two results.  Row 5000 t + p of a result therefore depends on row
  5000 t + p of the operands only, every row lies in exactly the block r / 5000, and the arrays end holding the
  product of the combined rows with the weight, and that product rescaled row by row.
-/
import proofs.«120913_j71536975282839_2_alg».proof.Proof.Gen.KernelIdeal.Frame
import proofs.«120913_j71536975282839_2_alg».proof.Proof.GraphIdx
import proofs.«120913_j71536975282839_2_alg».proof.Proof.Region1Payload
import Idealize.ShloMosaic.Lib.Pipeline.Value
import Idealize.ShloMosaic.Lib.ValueIdx

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- Block t of a row-tiled window sits at block index (t, 0); the bias and the weight are one block, at index 0. -/
theorem block_index : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ win1_3.index t (0 : Fin 1) = 0
    ∧ (win1_4.index t (0 : Fin 2) = 0 ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

/-- row p of block t is row 5000 t + p of the array -/
def row (t : Fin cfg1.N) (p : Fin 5000) : Fin 100000 :=
  ⟨t.val * 5000 + p.val, by have hN : cfg1.N = 20 := N_1; have := t.isLt; have := p.isLt; omega⟩

/-! ## Each window's block, read at coordinates -/

theorem agg_block (c : Dev nD) (t : Fin cfg1.N) (p : Fin 5000) (k : Fin 128) :
    (iblk1 V c 0 t : Vec Ideal S5000x128 .f32) (ix2 p k) = (V c main_v25 : S100000x128.Idx → EReal) (ix2 (row t p) k) := by
  obtain ⟨⟨e0, e1⟩, -⟩ := block_index t
  unfold iblk1
  rw [View.read_apply]
  show V c main_v25 _ = V c main_v25 _
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 128 + 1 * k.val = k.val; rw [e1]; omega

theorem h_block (c : Dev nD) (t : Fin cfg1.N) (p : Fin 5000) (k : Fin 128) :
    (iblk1 V c 1 t : Vec Ideal S5000x128 .f32) (ix2 p k) = (V c main_v15_0 : S100000x128.Idx → EReal) (ix2 (row t p) k) := by
  obtain ⟨-, ⟨e0, e1⟩, -⟩ := block_index t
  unfold iblk1
  rw [View.read_apply]
  show V c main_v15_0 _ = V c main_v15_0 _
  congr 1
  funext a
  apply Fin.ext
  match a with
  | ⟨0, _⟩ => show win1_1.index t (0 : Fin 2) * 5000 + 1 * p.val = t.val * 5000 + p.val; rw [e0]; omega
  | ⟨1, _⟩ => show win1_1.index t (1 : Fin 2) * 128 + 1 * k.val = k.val; rw [e1]; omega

theorem scale_block (c : Dev nD) (t : Fin cfg1.N) (p : Fin 5000) :
    (iblk1 V c 2 t : Vec Ideal S5000x1 .f32) (ix2 p (0 : Fin 1)) = (V c main_v11 : S100000x1.Idx → EReal) (ix2 (row t p) (0 : Fin 1)) := by
  obtain ⟨-, -, ⟨e0, e1⟩, -⟩ := block_index t
  unfold iblk1
  rw [View.read_apply]
  show V c main_v11 _ = V c main_v11 _
  congr 1
  funext a
  apply Fin.ext
  match a with
  | ⟨0, _⟩ => show win1_2.index t (0 : Fin 2) * 5000 + 1 * p.val = t.val * 5000 + p.val; rw [e0]; omega
  | ⟨1, _⟩ => show win1_2.index t (1 : Fin 2) * 1 + 1 * 0 = 0; rw [e1]

theorem bias_block (c : Dev nD) (t : Fin cfg1.N) (k : Fin 128) :
    (iblk1 V c 3 t : Vec Ideal S128 .f32) (ix1 k) = (V c main_arg3 : S128.Idx → EReal) (ix1 k) := by
  obtain ⟨-, -, -, e0, -⟩ := block_index t
  unfold iblk1
  rw [View.read_apply]
  show V c main_arg3 _ = V c main_arg3 _
  congr 1
  funext a
  apply Fin.ext
  match a with
  | ⟨0, _⟩ => show win1_3.index t (0 : Fin 1) * 128 + 1 * k.val = k.val; rw [e0]; omega

theorem weight_block (c : Dev nD) (t : Fin cfg1.N) (k q : Fin 128) :
    (iblk1 V c 4 t : Vec Ideal S128x128 .bf16) (ix2 k q) = (V c main_v13 : S128x128.Idx → EReal) (ix2 k q) := by
  obtain ⟨-, -, -, -, ⟨e0, e1⟩, -⟩ := block_index t
  unfold iblk1
  rw [View.read_apply]
  show V c main_v13 _ = V c main_v13 _
  congr 1
  funext a
  apply Fin.ext
  match a with
  | ⟨0, _⟩ => show win1_4.index t (0 : Fin 2) * 128 + 1 * k.val = k.val; rw [e0]; omega
  | ⟨1, _⟩ => show win1_4.index t (1 : Fin 2) * 128 + 1 * q.val = q.val; rw [e1]; omega

/-- where entry (p, q) of the first result's block t lies in its array -/
theorem first_emb (t : Fin cfg1.N) (p : Fin 5000) (q : Fin 128) :
    (((cfg1.win 5).blk t).view.emb (ix2 p q) : S100000x128.Idx) = ix2 (row t p) q := by
  obtain ⟨-, -, -, -, -, ⟨e0, e1⟩, -⟩ := block_index t
  funext a
  apply Fin.ext
  match a with
  | ⟨0, _⟩ => show win1_5.index t (0 : Fin 2) * 5000 + 1 * p.val = t.val * 5000 + p.val; rw [e0]; omega
  | ⟨1, _⟩ => show win1_5.index t (1 : Fin 2) * 128 + 1 * q.val = q.val; rw [e1]; omega

/-- where entry (p, q) of the second result's block t lies in its array -/
theorem second_emb (t : Fin cfg1.N) (p : Fin 5000) (q : Fin 128) :
    (((cfg1.win 6).blk t).view.emb (ix2 p q) : S100000x128.Idx) = ix2 (row t p) q := by
  obtain ⟨-, -, -, -, -, -, ⟨e0, e1⟩⟩ := block_index t
  funext a
  apply Fin.ext
  match a with
  | ⟨0, _⟩ => show win1_6.index t (0 : Fin 2) * 5000 + 1 * p.val = t.val * 5000 + p.val; rw [e0]; omega
  | ⟨1, _⟩ => show win1_6.index t (1 : Fin 2) * 128 + 1 * q.val = q.val; rw [e1]; omega

/-! ## The two results as functions of the whole operands -/

/-- the combined rows times the weight -/
abbrev first (c : Dev nD) : Cert.Graph.Mat 100000 128 :=
  Cert.Graph.mm (Cert.Graph.combine (V c main_v25) (V c main_v15_0) (V c main_v11) (V c main_arg3)) (V c main_v13)

/-- the same, each row rescaled -/
abbrev second (c : Dev nD) : Cert.Graph.Mat 100000 128 :=
  Cert.Graph.scaleRows (first V c) (V c main_v11)

/-- the sum that both results share, at row 5000 t + p and column q: for blocks d, agg, h, b, W that read the operands'
    row 5000 t + p (the bias and the weight whole) it is entry (5000 t + p, q) of `first` -/
theorem block_sum (c : Dev nD) (t : Fin cfg1.N) (p : Fin 5000) (q : Fin 128)
    (d : Vec Ideal S5000x1 .f32) (agg h : Vec Ideal S5000x128 .f32) (b : Vec Ideal S128 .f32) (W : Vec Ideal S128x128 .bf16)
    (hd : d (ix2 p (0 : Fin 1)) = (V c main_v11 : S100000x1.Idx → EReal) (ix2 (row t p) (0 : Fin 1)))
    (hagg : ∀ k : Fin 128, agg (ix2 p k) = (V c main_v25 : S100000x128.Idx → EReal) (ix2 (row t p) k))
    (hh : ∀ k : Fin 128, h (ix2 p k) = (V c main_v15_0 : S100000x128.Idx → EReal) (ix2 (row t p) k))
    (hb : ∀ k : Fin 128, b (ix1 k) = (V c main_arg3 : S128.Idx → EReal) (ix1 k))
    (hW : ∀ k : Fin 128, W (ix2 k q) = (V c main_v13 : S128x128.Idx → EReal) (ix2 k q)) :
    (∑ k : Fin 128, max (d (ix2 p (0 : Fin 1)) * (agg (ix2 p k) + h (ix2 p k) * d (ix2 p (0 : Fin 1))) + b (ix1 k)) 0 * W (ix2 k q))
      = first V c (ix2 (row t p) q) := by
  refine Eq.trans ?_ (Cert.Graph.mm_apply (Cert.Graph.combine (V c main_v25) (V c main_v15_0) (V c main_v11) (V c main_arg3))
    (V c main_v13) (row t p) q).symm
  refine Finset.sum_congr rfl fun k _ => ?_
  rw [Cert.Graph.combine_apply, hd, hagg, hh, hb, hW]

/-- WHAT BLOCK t WRITES BACK to the first result is rows 5000 t … of `first`. -/
theorem first_flushed (c : Dev nD) (t : Fin cfg1.N) :
    (dat1 (F := Ideal) V c).flushed 5 t = ((cfg1.win 5).blk t).view.read (Elt Ideal) (first V c) := by
  show (cfg1.win 5).cut (grid1.coords t) ((dat1 V c).after 5 t) = _
  rw [after1_5]
  unfold out1_5
  rw [View.canon_unit_zero zero2]
  simp only [View.ld_unit_zero (S := S5000x128) zero2, View.ld_unit_zero (S := S5000x1) zero2,
    View.ld_unit_zero (S := S128) zero1, View.ld_unit_zero (S := S128x128) zero2]
  refine funext fun (j : S5000x128.Idx) => ?_
  obtain ⟨p, q, rfl⟩ : ∃ (p : Fin 5000) (q : Fin 128), j = ix2 p q := ⟨j 0, j 1, eq_ix2 j⟩
  show k1_pay2 (F := Ideal) (iblk1 V c 2 t) (iblk1 V c 0 t) (iblk1 V c 1 t) (iblk1 V c 3 t) (iblk1 V c 4 t) (ix2 p q)
    = first V c (((cfg1.win 5).blk t).view.emb (ix2 p q))
  refine (pay2_apply _ _ _ _ _ p q).trans ?_
  rw [first_emb]
  exact block_sum V c t p q _ _ _ _ _ (scale_block V c t p) (agg_block V c t p) (h_block V c t p) (bias_block V c t)
    (fun k => weight_block V c t k q)

/-- WHAT BLOCK t WRITES BACK to the second result is rows 5000 t … of `second`. -/
theorem second_flushed (c : Dev nD) (t : Fin cfg1.N) :
    (dat1 (F := Ideal) V c).flushed 6 t = ((cfg1.win 6).blk t).view.read (Elt Ideal) (second V c) := by
  show (cfg1.win 6).cut (grid1.coords t) ((dat1 V c).after 6 t) = _
  rw [after1_6]
  unfold out1_6
  rw [View.canon_unit_zero zero2]
  simp only [View.ld_unit_zero (S := S5000x128) zero2, View.ld_unit_zero (S := S5000x1) zero2,
    View.ld_unit_zero (S := S128) zero1, View.ld_unit_zero (S := S128x128) zero2]
  refine funext fun (j : S5000x128.Idx) => ?_
  obtain ⟨p, q, rfl⟩ : ∃ (p : Fin 5000) (q : Fin 128), j = ix2 p q := ⟨j 0, j 1, eq_ix2 j⟩
  show k1_pay3 (F := Ideal) (iblk1 V c 2 t) (iblk1 V c 0 t) (iblk1 V c 1 t) (iblk1 V c 3 t) (iblk1 V c 4 t) (ix2 p q)
    = second V c (((cfg1.win 6).blk t).view.emb (ix2 p q))
  refine (pay3_apply _ _ _ _ _ p q).trans ?_
  rw [second_emb]
  refine Eq.trans ?_ (Cert.Graph.scaleRows_apply (first V c) (V c main_v11) (row t p) q).symm
  rw [block_sum V c t p q _ _ _ _ _ (scale_block V c t p) (agg_block V c t p) (h_block V c t p) (bias_block V c t)
    (fun k => weight_block V c t k q), scale_block]

/-! ## Every row lies in a block -/

theorem first_cover (i : S100000x128.Idx) :
    ∃ t : Fin cfg1.N, (cfg1.win 5).flush t = true ∧ i ∈ ((cfg1.win 5).blk t).view.set := by
  have hN : cfg1.N = 20 := N_1
  have hr : (i 0).val < 100000 := idx2_lt0 i
  have hq : (i 1).val < 128 := idx2_lt1 i
  have ht : (i 0).val / 5000 < cfg1.N := by omega
  obtain ⟨-, -, -, -, -, ⟨e0, e1⟩, -⟩ := block_index ⟨(i 0).val / 5000, ht⟩
  refine ⟨⟨(i 0).val / 5000, ht⟩, flush1_5 _, ?_⟩
  show i ∈ ((View.whole main_v26_0).slice (win1_5.rect ⟨(i 0).val / 5000, ht⟩)).set
  rw [View.set_slice_whole, Rect.mem_set_unit]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e1]; omega

theorem second_cover (i : S100000x128.Idx) :
    ∃ t : Fin cfg1.N, (cfg1.win 6).flush t = true ∧ i ∈ ((cfg1.win 6).blk t).view.set := by
  have hN : cfg1.N = 20 := N_1
  have hr : (i 0).val < 100000 := idx2_lt0 i
  have hq : (i 1).val < 128 := idx2_lt1 i
  have ht : (i 0).val / 5000 < cfg1.N := by omega
  obtain ⟨-, -, -, -, -, -, ⟨e0, e1⟩⟩ := block_index ⟨(i 0).val / 5000, ht⟩
  refine ⟨⟨(i 0).val / 5000, ht⟩, flush1_6 _, ?_⟩
  show i ∈ ((View.whole main_v26_1).slice (win1_6.rect ⟨(i 0).val / 5000, ht⟩)).set
  rw [View.set_slice_whole, Rect.mem_set_unit]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_6.index ⟨(i 0).val / 5000, ht⟩ (1 : Fin 2) * 128 ≤ (i 1).val
      ∧ (i 1).val < win1_6.index ⟨(i 0).val / 5000, ht⟩ (1 : Fin 2) * 128 + 128
    rw [e1]; omega

/-! ## The arrays after the last block -/

/-- THE FIRST RESULT: the combined rows times the weight. -/
theorem arr5 (c : Dev nD) : (dat1 (F := Ideal) V c).arrAt 5 cfg1.N
    = Cert.Graph.mm (Cert.Graph.combine (V c main_v25) (V c main_v15_0) (V c main_v11) (V c main_arg3)) (V c main_v13) :=
  (dat1 (F := Ideal) V c).arrAt_eq_of_cover 5 (first V c) (fun t _ => first_flushed V c t) first_cover

/-- THE SECOND RESULT: the first one, each row times its scale. -/
theorem arr6 (c : Dev nD) : (dat1 (F := Ideal) V c).arrAt 6 cfg1.N
    = Cert.Graph.scaleRows (Cert.Graph.mm (Cert.Graph.combine (V c main_v25) (V c main_v15_0) (V c main_v11) (V c main_arg3))
        (V c main_v13)) (V c main_v11) :=
  (dat1 (F := Ideal) V c).arrAt_eq_of_cover 6 (second V c) (fun t _ => second_flushed V c t) second_cover

end Cert.KernelIdeal.Region1

end
-- ==== Proof.Region2Payload.lean ====
/-
  One grid point of the second layer's output stage, read at a row and a column of its block of 5000 nodes.

  The block's value is a matrix product into the zero accumulator plus a bias row.  The left factor is the layer's
  nonlinearity  max (d n * (agg (n, k) + h (n, k) * d n) + b k, 0)  of the node's aggregated features, its own
  features, its scale and the bias, narrowed to the product's operand format (the identity on extended reals); the
  right factor is the 128 x 64 weight.  Entry (p, q) is therefore the sum over the 128 features k of that maximum
  times W (k, q), plus the output bias at q: row p of the result depends on row p of the operands only.
-/
import proofs.«120913_j71536975282839_2_alg».proof.Proof.Gen.KernelIdeal.Skeleton
import proofs.«120913_j71536975282839_2_alg».proof.Proof.LibMatmulRows
import proofs.«120913_j71536975282839_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Region2

open Idealize.ShloMosaic Idealize.ShloMosaic.ValueIdx Cert.KernelIdeal Cert.KernelIdeal.Gen

/-! ## The product's dimension numbers: which operand entries an output entry and a contraction position read -/

/-- The left operand's row is the output's row. -/
theorem dot_lhs_row (i : S5000x64.Idx) (a : dot_S5000x128_S128x64_S5000x64_1_0_0_1_n_n.contr.Idx) :
    (dot_S5000x128_S128x64_S5000x64_1_0_0_1_n_n.lhsIdx i a 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

/-- The left operand's column is the contraction position. -/
theorem dot_lhs_col (i : S5000x64.Idx) (a : dot_S5000x128_S128x64_S5000x64_1_0_0_1_n_n.contr.Idx) :
    (dot_S5000x128_S128x64_S5000x64_1_0_0_1_n_n.lhsIdx i a 1).val = (a ⟨0, by decide⟩).val :=
  dot_S5000x128_S128x64_S5000x64_1_0_0_1_n_n.lhsIdx_val_of_single rfl i a

/-- The right operand's row is the contraction position. -/
theorem dot_rhs_row (i : S5000x64.Idx) (a : dot_S5000x128_S128x64_S5000x64_1_0_0_1_n_n.contr.Idx) :
    (dot_S5000x128_S128x64_S5000x64_1_0_0_1_n_n.rhsIdx i a 0).val = (a ⟨0, by decide⟩).val :=
  dot_S5000x128_S128x64_S5000x64_1_0_0_1_n_n.rhsIdx_val_of_single rfl i a

/-- The right operand's column is the output's column. -/
theorem dot_rhs_col (i : S5000x64.Idx) (a : dot_S5000x128_S128x64_S5000x64_1_0_0_1_n_n.contr.Idx) :
    (dot_S5000x128_S128x64_S5000x64_1_0_0_1_n_n.rhsIdx i a 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-! ## The block's value at (p, q) -/

/-- Entry (p, q) of the block one grid point computes from its operands' blocks: the scale column `d`, the aggregated
    features `agg`, the node features `h`, the bias `b`, the weight `W` and the output bias `ob`. -/
theorem pay_apply (d : FVec Ideal S5000x1 .f32) (agg h : FVec Ideal S5000x128 .f32) (b : FVec Ideal S128 .f32)
    (W : FVec Ideal S128x64 .bf16) (ob : FVec Ideal S64 .f32) (p : Fin 5000) (q : Fin 64) :
    k2_pay1 (F := Ideal) d agg h b W ob (ix2 p q)
      = (∑ k : Fin 128, max (d (ix2 p 0) * (agg (ix2 p k) + h (ix2 p k) * d (ix2 p 0)) + b (ix1 k)) 0 * W (ix2 k q))
        + ob (ix1 q) := by
  unfold k2_pay1
  rw [addf_apply]
  congr 1
  · refine (Cert.LibMatmulRows.matmul_zero_ix2 dot_S5000x128_S128x64_S5000x64_1_0_0_1_n_n rfl rfl dot_lhs_row dot_lhs_col dot_rhs_row dot_rhs_col
      none _ _ p q).trans ?_
    refine Finset.sum_congr rfl fun k _ => ?_
    rw [truncf_apply, maximumf_apply, addf_apply, mulf_apply, addf_apply, mulf_apply, broadcast_apply]
    simp only [shapeCast_self]
    rw [Cert.LibKeepdims.broadcastTo_a1_ab_apply, broadcastTo_1b_ab_apply, shapeCast_a_1a_apply]
    have h0 : (FloatOps.ofBits FTy.f32 0x00000000#32 : Ideal .f32) = 0 := Ideal.ofBits_zero_f32
    rw [h0]
  · rw [broadcastTo_1b_ab_apply, shapeCast_a_1a_apply]

end Cert.KernelIdeal.Region2

end
-- ==== Proof.Region2Value.lean ====
/-
  The second layer's output stage over all 100000 nodes.

  The stage runs over twenty grid points; point t holds rows 5000 t … 5000 t + 4999 of the aggregated features, the node
  features and the scale column, and the whole bias, weight and output bias, and writes rows 5000 t … 5000 t + 4999 of the
  result.  Row p of the block a point computes depends on row p of its operands' blocks only, so the block is that block
  of rows of ONE function of the whole arrays: the nonlinearity of the layer, multiplied into the weight, plus the output
  bias on every row.  The twenty blocks of rows tile the result (row r lies in block r / 5000), so after the last point
  the result array is that function.
-/
import proofs.«120913_j71536975282839_2_alg».proof.Proof.Gen.KernelIdeal.Frame
import proofs.«120913_j71536975282839_2_alg».proof.Proof.GraphIdx
import proofs.«120913_j71536975282839_2_alg».proof.Proof.Region2Payload
import Idealize.ShloMosaic.Lib.Pipeline.Value
import Idealize.ShloMosaic.Lib.ValueIdx

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen Cert.Graph

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-! ## One block of rows, as rows of one function of the whole arrays -/

/-- If a point's operand blocks are rows 5000 T … 5000 T + 4999 of the aggregated features `Agg`, the node features `H`
    and the scale column `Dd`, and the whole bias, weight and output bias, then entry `j` of the block it computes is
    entry (5000 T + row of j, column of j) of the layer's nonlinearity multiplied into the weight plus the output bias. -/
theorem block_entry (d : FVec Ideal S5000x1 .f32) (agg h : FVec Ideal S5000x128 .f32) (b : FVec Ideal S128 .f32)
    (W : FVec Ideal S128x64 .bf16) (ob : FVec Ideal S64 .f32)
    (Agg H : Mat 100000 128) (Dd : Mat 100000 1) (B : Vct 128) (Ww : Mat 128 64) (Ob : Vct 64) (T : Nat)
    (hagg : ∀ (p : Fin 5000) (k : Fin 128) (r : Fin 100000), r.val = T * 5000 + p.val → agg (ix2 p k) = Agg (ix2 r k))
    (hh : ∀ (p : Fin 5000) (k : Fin 128) (r : Fin 100000), r.val = T * 5000 + p.val → h (ix2 p k) = H (ix2 r k))
    (hd : ∀ (p : Fin 5000) (r : Fin 100000), r.val = T * 5000 + p.val → d (ix2 p 0) = Dd (ix2 r 0))
    (hb : ∀ k : Fin 128, b (ix1 k) = B (ix1 k)) (hW : ∀ (k : Fin 128) (q : Fin 64), W (ix2 k q) = Ww (ix2 k q))
    (hob : ∀ q : Fin 64, ob (ix1 q) = Ob (ix1 q))
    (j : S5000x64.Idx) (i : S100000x64.Idx) (hi0 : (i 0).val = T * 5000 + (j 0).val) (hi1 : (i 1).val = (j 1).val) :
    k2_pay1 (F := Ideal) d agg h b W ob j = addRow (mm (combine Agg H Dd B) Ww) Ob i := by
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  have hr : r.val = T * 5000 + p.val := hi0
  obtain rfl : q' = q := Fin.ext hi1
  rw [pay_apply, addRow_apply, mm_apply, hob]
  congr 1
  refine Finset.sum_congr rfl fun k _ => ?_
  rw [combine_apply, hagg p k r hr, hh p k r hr, hd p r hr, hb, hW]

/-! ## The grid: which block of each array a point holds -/

/-- Point t holds block (t, 0) of the three row-tiled operands and of the result, and block 0 of the whole operands
    (decided over the twenty points). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

/-- The result as one function of the whole arrays. -/
abbrev whole (c : Dev nD) : Mat 100000 64 :=
  addRow (mm (combine (V c main_v36 : Mat 100000 128) (V c main_v26_0 : Mat 100000 128) (V c main_v11 : Mat 100000 1)
    (V c main_arg5 : Vct 128)) (V c main_v14 : Mat 128 64)) (V c main_arg7 : Vct 64)

/-- What point t writes back is rows 5000 t … 5000 t + 4999 of `whole`. -/
theorem flushed_eq (c : Dev nD) (t : Fin cfg2.N) :
    (dat2 (F := Ideal) V c).flushed 6 t = ((cfg2.win 6).blk t).view.read (Elt Ideal) (whole V c) := by
  show (cfg2.win 6).cut (grid2.coords t) ((dat2 (F := Ideal) V c).after 6 t) = _
  rw [after2_6]
  unfold out2_6
  rw [View.canon_unit_zero zero2]
  simp only [View.ld_unit_zero (S := S5000x128) zero2, View.ld_unit_zero (S := S5000x1) zero2,
    View.ld_unit_zero (S := S128x64) zero2, View.ld_unit_zero (S := S128) zero1, View.ld_unit_zero (S := S64) zero1]
  obtain ⟨e00, e01, e10, e11, e20, e21, e30, e40, e41, e50, e60, e61⟩ := idx_facts t
  funext j
  refine block_entry (iblk2 V c 2 t) (iblk2 V c 0 t) (iblk2 V c 1 t) (iblk2 V c 3 t) (iblk2 V c 4 t) (iblk2 V c 5 t)
    (V c main_v36) (V c main_v26_0) (V c main_v11) (V c main_arg5) (V c main_v14) (V c main_arg7) t.val
    (fun p k r hr => ?_) (fun p k r hr => ?_) (fun p r hr => ?_) (fun k => ?_) (fun k q => ?_) (fun q => ?_)
    j (((cfg2.win 6).blk t).view.emb j) ?_ ?_
  · show V c main_v36 (((cfg2.win 0).blk t).view.emb (ix2 p k)) = V c main_v36 (ix2 r k)
    refine congrArg _ (funext fun a => Fin.ext ?_)
    match a with
    | ⟨0, _⟩ => show win2_0.index t (0 : Fin 2) * 5000 + 1 * p.val = r.val; rw [e00, hr]; omega
    | ⟨1, _⟩ => show win2_0.index t (1 : Fin 2) * 128 + 1 * k.val = k.val; rw [e01]; omega
  · show V c main_v26_0 (((cfg2.win 1).blk t).view.emb (ix2 p k)) = V c main_v26_0 (ix2 r k)
    refine congrArg _ (funext fun a => Fin.ext ?_)
    match a with
    | ⟨0, _⟩ => show win2_1.index t (0 : Fin 2) * 5000 + 1 * p.val = r.val; rw [e10, hr]; omega
    | ⟨1, _⟩ => show win2_1.index t (1 : Fin 2) * 128 + 1 * k.val = k.val; rw [e11]; omega
  · show V c main_v11 (((cfg2.win 2).blk t).view.emb (ix2 p (0 : Fin 1))) = V c main_v11 (ix2 r (0 : Fin 1))
    refine congrArg _ (funext fun a => Fin.ext ?_)
    match a with
    | ⟨0, _⟩ => show win2_2.index t (0 : Fin 2) * 5000 + 1 * p.val = r.val; rw [e20, hr]; omega
    | ⟨1, _⟩ => show win2_2.index t (1 : Fin 2) * 1 + 1 * 0 = 0; rw [e21]
  · show V c main_arg5 (((cfg2.win 3).blk t).view.emb (ix1 k)) = V c main_arg5 (ix1 k)
    refine congrArg _ (funext fun a => Fin.ext ?_)
    match a with
    | ⟨0, _⟩ => show win2_3.index t (0 : Fin 1) * 128 + 1 * k.val = k.val; rw [e30]; omega
  · show V c main_v14 (((cfg2.win 4).blk t).view.emb (ix2 k q)) = V c main_v14 (ix2 k q)
    refine congrArg _ (funext fun a => Fin.ext ?_)
    match a with
    | ⟨0, _⟩ => show win2_4.index t (0 : Fin 2) * 128 + 1 * k.val = k.val; rw [e40]; omega
    | ⟨1, _⟩ => show win2_4.index t (1 : Fin 2) * 64 + 1 * q.val = q.val; rw [e41]; omega
  · show V c main_arg7 (((cfg2.win 5).blk t).view.emb (ix1 q)) = V c main_arg7 (ix1 q)
    refine congrArg _ (funext fun a => Fin.ext ?_)
    match a with
    | ⟨0, _⟩ => show win2_5.index t (0 : Fin 1) * 64 + 1 * q.val = q.val; rw [e50]; omega
  · show win2_6.index t (0 : Fin 2) * 5000 + 1 * (j 0).val = t.val * 5000 + (j 0).val
    rw [e60]; omega
  · show win2_6.index t (1 : Fin 2) * 64 + 1 * (j 1).val = (j 1).val
    rw [e61]; omega

/-! ## The twenty blocks of rows tile the result -/

/-- An entry of the result lies in point t's block iff each coordinate is in the block's range on its axis. -/
theorem mem_blk (t : Fin cfg2.N) (i : S100000x64.Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v37).slice (win2_6.rect t)).set ↔ _
  rw [View.set_slice_whole, Rect.mem_set_unit]
  exact Iff.rfl

/-- Row r of the result lies in the block of point r / 5000, which writes back. -/
theorem covered (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_6 _, ?_⟩
  obtain ⟨-, -, -, -, -, -, -, -, -, -, e60, e61⟩ := idx_facts ⟨(i 0).val / 5000, by rw [hN]; omega⟩
  rw [mem_blk]
  intro a
  match a with
  | ⟨0, _⟩ =>
    show win2_6.index ⟨(i 0).val / 5000, _⟩ (0 : Fin 2) * 5000 ≤ (i 0).val
      ∧ (i 0).val < win2_6.index ⟨(i 0).val / 5000, _⟩ (0 : Fin 2) * 5000 + 5000
    rw [e60]; show (i 0).val / 5000 * 5000 ≤ (i 0).val ∧ (i 0).val < (i 0).val / 5000 * 5000 + 5000; omega
  | ⟨1, _⟩ =>
    show win2_6.index ⟨(i 0).val / 5000, _⟩ (1 : Fin 2) * 64 ≤ (i 1).val
      ∧ (i 1).val < win2_6.index ⟨(i 0).val / 5000, _⟩ (1 : Fin 2) * 64 + 64
    rw [e61]; omega

/-! ## The result array after the last point -/

/-- After the twenty points the result array holds, at every node and output feature, the layer's nonlinearity of the
    arrays the stage found, multiplied into the weight, plus the output bias. -/
theorem arr6 (c : Dev nD) : (dat2 (F := Ideal) V c).arrAt 6 cfg2.N
    = addRow (mm (combine (V c main_v36 : Mat 100000 128) (V c main_v26_0 : Mat 100000 128) (V c main_v11 : Mat 100000 1)
        (V c main_arg5 : Vct 128)) (V c main_v14 : Mat 128 64)) (V c main_arg7 : Vct 64) :=
  (dat2 (F := Ideal) V c).arrAt_eq_of_cover 6 (whole V c) (fun t _ => flushed_eq V c t) covered

end Cert.KernelIdeal.Region2

end
-- ==== Proof.KernelValue.lean ====
/-
  The idealized kernel's result as one function of its arguments, and that function against the reference's.
  Region 0 leaves H1 = x W1 and H1 scaled by the node scale; the second stretch aggregates the scaled rows along the
  edges; region 1 joins aggregate, H1, scale and bias into the first layer's output, multiplies by W2 and scales
  again; the third stretch aggregates; region 2 joins, multiplies by Wfc and adds the output bias.  Each join is the
  node-side arrangement of a graph-convolution layer.  Over real inputs every intermediate array is real, so each
  node-side layer is the reference's edge-side layer, and the two programs compute the same array.
-/
import proofs.«120913_j71536975282839_2_alg».proof.Proof.KernelCarry
import proofs.«120913_j71536975282839_2_alg».proof.Proof.KernelHost
import proofs.«120913_j71536975282839_2_alg».proof.Proof.Region0Value
import proofs.«120913_j71536975282839_2_alg».proof.Proof.Region1Value
import proofs.«120913_j71536975282839_2_alg».proof.Proof.Region2Value
import proofs.«120913_j71536975282839_2_alg».proof.Proof.GraphLaw
import proofs.«120913_j71536975282839_2_alg».proof.Proof.RefValue

set_option maxRecDepth 16384

noncomputable section

namespace Cert.KernelIdeal.KValue

open Idealize.ShloMosaic Idealize.ShloMosaic.TcCoe Idealize.SL.Sem Idealize.ShloMosaic.ValueIdx
open Cert.KernelIdeal Cert.KernelIdeal.Gen Cert.Graph Cert.Layer Cert.LibRealEntries
open Cert.KernelIdeal.Carry Cert.KernelIdeal.Host
open Cert.ReferenceIdeal.RefValue (srcOf dstOf wrapOf scaleOf)

/-- the node-side arrangement of one layer: aggregate of the scaled features, joined with the features, the scale
    column and the bias -/
def node (D : Mat 100000 1) (H : Mat 100000 128) (x1 : IVec S2x1600000 32) (b : Vct 128) : Mat 100000 128 :=
  combine (agg (scaleRows H D) (srcOf x1) (dstOf x1)) H D b

/-- the kernel's result from its arguments and the scale column -/
def outK (D : Mat 100000 1) (x0 : Mat 100000 128) (x1 : IVec S2x1600000 32) (x2 : Mat 128 128) (x3 : Vct 128)
    (x4 : Mat 128 128) (x5 : Vct 128) (x6 : Mat 128 64) (x7 : Vct 64) : Mat 100000 64 :=
  addRow (mm (node D (mm (node D (mm x0 x2) x1 x3) x4) x1 x5) x6) x7

variable (m : (ℓ : Loc nD τ sig) → Buf (Elt Ideal) ℓ) (ρ : Dev nD → PrngReg) (c : Dev nD)

/-- region 0's first output: the features times the first weights -/
theorem h1_eq : (W2 m ρ c (Proc.devRef .tc main_v15_0) : Mat 100000 128)
    = mm (m ((c : Thread nD τ).loc main_arg0)) (m ((c : Thread nD τ).loc main_arg2)) := by
  refine (W2_arr m ρ c 3).trans ((Cert.KernelIdeal.Region0.arr3 (V1 m ρ) c).trans ?_)
  show mm (W1 m ρ c (Proc.devRef .tc main_arg0)) (W1 m ρ c (Proc.devRef .tc main_v12)) = _
  rw [arg0_at1 m ρ c, v12_eq m ρ c]

/-- region 0's second output: the same, every row scaled by its node's scale -/
theorem hs1_eq : (W2 m ρ c (Proc.devRef .tc main_v15_1) : Mat 100000 128)
    = scaleRows (mm (m ((c : Thread nD τ).loc main_arg0)) (m ((c : Thread nD τ).loc main_arg2)))
        (W1 m ρ c (Proc.devRef .tc main_v11)) := by
  refine (W2_arr m ρ c 4).trans ((Cert.KernelIdeal.Region0.arr4 (V1 m ρ) c).trans ?_)
  show scaleRows (mm (W1 m ρ c (Proc.devRef .tc main_arg0)) (W1 m ρ c (Proc.devRef .tc main_v12)))
      (W1 m ρ c (Proc.devRef .tc main_v11)) = _
  rw [arg0_at1 m ρ c, v12_eq m ρ c]

/-- the aggregate region 1 consumes -/
theorem agg1_eq : (W3 m ρ c (Proc.devRef .tc main_v25) : Mat 100000 128)
    = agg (scaleRows (mm (m ((c : Thread nD τ).loc main_arg0)) (m ((c : Thread nD τ).loc main_arg2)))
        (W1 m ρ c (Proc.devRef .tc main_v11)))
        (srcOf (m ((c : Thread nD τ).loc main_arg1))) (dstOf (m ((c : Thread nD τ).loc main_arg1))) := by
  rw [v25_eq m ρ c, hs1_eq m ρ c, v1_at2 m ρ c, v3_at2 m ρ c, v1_eq m ρ c, v3_eq m ρ c]

/-- region 1's first output: the first layer's output times the second weights -/
theorem h2_eq : (W4 m ρ c (Proc.devRef .tc main_v26_0) : Mat 100000 128)
    = mm (node (W1 m ρ c (Proc.devRef .tc main_v11))
          (mm (m ((c : Thread nD τ).loc main_arg0)) (m ((c : Thread nD τ).loc main_arg2)))
          (m ((c : Thread nD τ).loc main_arg1)) (m ((c : Thread nD τ).loc main_arg3)))
        (m ((c : Thread nD τ).loc main_arg4)) := by
  refine (W4_arr m ρ c 5).trans ((Cert.KernelIdeal.Region1.arr5 (V3 m ρ) c).trans ?_)
  show mm (combine (W3 m ρ c (Proc.devRef .tc main_v25)) (W3 m ρ c (Proc.devRef .tc main_v15_0))
      (W3 m ρ c (Proc.devRef .tc main_v11)) (W3 m ρ c (Proc.devRef .tc main_arg3))) (W3 m ρ c (Proc.devRef .tc main_v13)) = _
  rw [agg1_eq m ρ c, v15_0_at3 m ρ c, h1_eq m ρ c, v11_at3 m ρ c, arg3_at3 m ρ c, v13_at3 m ρ c, v13_eq m ρ c]
  rfl

/-- region 1's second output: the same, every row scaled by its node's scale -/
theorem hs2_eq : (W4 m ρ c (Proc.devRef .tc main_v26_1) : Mat 100000 128)
    = scaleRows (mm (node (W1 m ρ c (Proc.devRef .tc main_v11))
          (mm (m ((c : Thread nD τ).loc main_arg0)) (m ((c : Thread nD τ).loc main_arg2)))
          (m ((c : Thread nD τ).loc main_arg1)) (m ((c : Thread nD τ).loc main_arg3)))
        (m ((c : Thread nD τ).loc main_arg4))) (W1 m ρ c (Proc.devRef .tc main_v11)) := by
  refine (W4_arr m ρ c 6).trans ((Cert.KernelIdeal.Region1.arr6 (V3 m ρ) c).trans ?_)
  show scaleRows (mm (combine (W3 m ρ c (Proc.devRef .tc main_v25)) (W3 m ρ c (Proc.devRef .tc main_v15_0))
      (W3 m ρ c (Proc.devRef .tc main_v11)) (W3 m ρ c (Proc.devRef .tc main_arg3))) (W3 m ρ c (Proc.devRef .tc main_v13)))
      (W3 m ρ c (Proc.devRef .tc main_v11)) = _
  rw [agg1_eq m ρ c, v15_0_at3 m ρ c, h1_eq m ρ c, v11_at3 m ρ c, arg3_at3 m ρ c, v13_at3 m ρ c, v13_eq m ρ c]
  rfl

/-- the aggregate region 2 consumes -/
theorem agg2_eq : (W5 m ρ c (Proc.devRef .tc main_v36) : Mat 100000 128)
    = agg (scaleRows (mm (node (W1 m ρ c (Proc.devRef .tc main_v11))
          (mm (m ((c : Thread nD τ).loc main_arg0)) (m ((c : Thread nD τ).loc main_arg2)))
          (m ((c : Thread nD τ).loc main_arg1)) (m ((c : Thread nD τ).loc main_arg3)))
        (m ((c : Thread nD τ).loc main_arg4))) (W1 m ρ c (Proc.devRef .tc main_v11)))
        (srcOf (m ((c : Thread nD τ).loc main_arg1))) (dstOf (m ((c : Thread nD τ).loc main_arg1))) := by
  rw [v36_eq m ρ c, hs2_eq m ρ c, v1_at4 m ρ c, v3_at4 m ρ c, v1_eq m ρ c, v3_eq m ρ c]

/-- THE KERNEL'S RESULT, regions and stretches composed -/
theorem composed : (W6 m ρ c (Proc.devRef .tc main_v37) : Mat 100000 64)
    = outK (W1 m ρ c (Proc.devRef .tc main_v11)) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (W6_arr m ρ c 6).trans ((Cert.KernelIdeal.Region2.arr6 (V5 m ρ) c).trans ?_)
  show addRow (mm (combine (W5 m ρ c (Proc.devRef .tc main_v36)) (W5 m ρ c (Proc.devRef .tc main_v26_0))
      (W5 m ρ c (Proc.devRef .tc main_v11)) (W5 m ρ c (Proc.devRef .tc main_arg5))) (W5 m ρ c (Proc.devRef .tc main_v14)))
      (W5 m ρ c (Proc.devRef .tc main_arg7)) = _
  rw [agg2_eq m ρ c, v26_0_at5 m ρ c, h2_eq m ρ c, v11_at5 m ρ c, arg5_at5 m ρ c, v14_at5 m ρ c, v14_eq m ρ c, arg7_at5 m ρ c]
  rfl

/-- THE TWO PROGRAMS AGREE.  Over real features, weights and first bias the kernel's result is the reference's function
    of the arguments: the features of each layer are real (finite sums of products of reals; a maximum of reals), the
    scale is real, so the node-side arrangement of each layer is the edge-side one. -/
theorem value
    (h0 : ∀ i, IsReal ((m ((c : Thread nD τ).loc main_arg0) : Mat 100000 128) i))
    (h2 : ∀ i, IsReal ((m ((c : Thread nD τ).loc main_arg2) : Mat 128 128) i))
    (h3 : ∀ i, IsReal ((m ((c : Thread nD τ).loc main_arg3) : Vct 128) i))
    (h4 : ∀ i, IsReal ((m ((c : Thread nD τ).loc main_arg4) : Mat 128 128) i)) :
    (W6 m ρ c (Proc.devRef .tc main_v37) : Mat 100000 64)
      = Cert.ReferenceIdeal.RefValue.out (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  rw [composed m ρ c]
  have hD := v11_apply m ρ c
  generalize (W1 m ρ c (Proc.devRef .tc main_v11) : Mat 100000 1) = D at hD ⊢
  generalize m ((c : Thread nD τ).loc main_arg0) = x0 at h0 ⊢
  generalize m ((c : Thread nD τ).loc main_arg1) = x1 at hD ⊢
  generalize m ((c : Thread nD τ).loc main_arg2) = x2 at h2 ⊢
  generalize m ((c : Thread nD τ).loc main_arg3) = x3 at h3 ⊢
  generalize m ((c : Thread nD τ).loc main_arg4) = x4 at h4 ⊢
  generalize m ((c : Thread nD τ).loc main_arg5) = x5
  generalize m ((c : Thread nD τ).loc main_arg6) = x6
  generalize m ((c : Thread nD τ).loc main_arg7) = x7
  unfold outK Cert.ReferenceIdeal.RefValue.out
  have hd : ∀ n : Fin 100000, IsReal (scaleOf x1 (ix1 n)) := fun n => Cert.GraphLaw.dinv_real _ _ _ _ _ n
  have law : ∀ (H : Mat 100000 128) (b : Vct 128), (∀ (p : Fin 100000) (f : Fin 128), IsReal (H (ix2 p f))) →
      node D H x1 b = Cert.ReferenceIdeal.RefValue.layer H x1 b := by
    intro H b hH
    unfold node Cert.ReferenceIdeal.RefValue.layer
    exact Cert.GraphLaw.layer_law _ _ _ _ _ _ _ _ _ _ (by decide) H (scaleOf x1) D hD (wrapOf (srcOf x1)) (wrapOf (dstOf x1))
      (dstOf x1) b hH hd (fun e n h => clamp_wrapped_of_reads _ (dstOf x1) 100000#32 e n h)
  have hH1 : ∀ (p : Fin 100000) (f : Fin 128), IsReal (mm x0 x2 (ix2 p f)) :=
    Cert.GraphLaw.mm_real x0 x2 (fun n k => h0 _) (fun k f => h2 _)
  rw [law _ _ hH1]
  have hL1 : ∀ (p : Fin 100000) (f : Fin 128), IsReal (Cert.ReferenceIdeal.RefValue.layer (mm x0 x2) x1 x3 (ix2 p f)) := by
    intro p f
    unfold Cert.ReferenceIdeal.RefValue.layer
    exact Cert.GraphLaw.layerRef_real _ _ _ _ _ _ _ _ _ _ (by decide) _ _ _ _ _ _ hH1 hd (fun f => h3 _) p f
  have hH2 : ∀ (p : Fin 100000) (f : Fin 128), IsReal (mm (Cert.ReferenceIdeal.RefValue.layer (mm x0 x2) x1 x3) x4 (ix2 p f)) :=
    Cert.GraphLaw.mm_real _ x4 hL1 (fun k f => h4 _)
  rw [law _ _ hH2]

end Cert.KernelIdeal.KValue

end
-- ==== Proof.FiniteInputs.lean ====
/-
  Finite inputs are real numbers.

  The precondition is the conjunction, over the seven float arrays, of "every entry's absolute value is below +∞",
  each read as one bit.  On the extended reals the absolute value of x is max x (-x), and the word 0x7F800000 is +∞;
  max x (-x) < +∞ excludes x = +∞ and x = -∞, and an extended real that is neither is a real number.
-/
import proofs.«120913_j71536975282839_2_alg».proof.Proof.Gen.Pre_finite_inputs
import proofs.«120913_j71536975282839_2_alg».proof.Proof.LibRealEntries
import Idealize.ShloMosaic.Lib.ReduceAll
import Idealize.ShloMosaic.Lib.ValueIdx
import Idealize.ShloMosaic.PureOps.Ideal.Laws

noncomputable section

namespace Cert.Finite

open Idealize.ShloMosaic Cert.Pre_finite_inputs Cert.LibRealEntries

/-- The rank-0 shape has one index. -/
instance : Subsingleton S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value compares below +∞ is a real number. -/
theorem isReal_of_abs_lt_inf (x : EReal)
    (h : Ideal.cmp .olt (max x (-x)) (Ideal.ofBits .f32 0x7F800000#32) = 1#1) : IsReal x := by
  rw [ofBits_inf] at h
  induction x using EReal.rec with
  | bot => exfalso; revert h; simp [Ideal.cmp]
  | top => exfalso; revert h; simp [Ideal.cmp]
  | coe r => exact ⟨r, rfl⟩

/-- One conjunct of the precondition: if "all entries' absolute values are below +∞" reads 1, every entry is real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant (F := Ideal) S_ .f32 0x7F800000#32)))
        (constantI S_ 1 1#1) hr hu ValueIdx.ix0 = 1#1) (i : s.Idx) : IsReal (x i) :=
  isReal_of_abs_lt_inf (x i) (Host.reduce_andi_all _ _ hr hu ValueIdx.ix0 e i)

/-- A conjunction of two one-bit arrays at an index is the conjunction of the bits. -/
theorem andi_apply {s : Shape} (a b : IVec s 1) (i : s.Idx) : andi a b i = IntOp.andi (a i) (b i) := rfl

variable [Facts]

/-- THE PRECONDITION DECODED: when it reads 1, every entry of each of the seven float arrays is a real number. -/
theorem inputs_real (x0 : FVec Ideal S100000x128 .f32) (x1 : IVec S2x1600000 32) (x2 : FVec Ideal S128x128 .f32)
    (x3 : FVec Ideal S128 .f32) (x4 : FVec Ideal S128x128 .f32) (x5 : FVec Ideal S128 .f32)
    (x6 : FVec Ideal S128x64 .f32) (x7 : FVec Ideal S64 .f32)
    (h : fn (F := Ideal) x0 x1 x2 x3 x4 x5 x6 x7 = (fun _ => 1#1)) :
    (∀ i, IsReal (x0 i)) ∧ (∀ i, IsReal (x2 i)) ∧ (∀ i, IsReal (x3 i)) ∧ (∀ i, IsReal (x4 i))
      ∧ (∀ i, IsReal (x5 i)) ∧ (∀ i, IsReal (x6 i)) ∧ (∀ i, IsReal (x7 i)) := by
  have e := congrFun h ValueIdx.ix0
  dsimp only [fn, fn_part1] at e
  simp only [andi_apply, IntOp.andi_eq_one] at e
  obtain ⟨⟨⟨⟨⟨⟨e0, e2⟩, e3⟩, e4⟩, e5⟩, e6⟩, e7⟩ := e
  exact ⟨all_real x0 _ _ _ e0, all_real x2 _ _ _ e2, all_real x3 _ _ _ e3, all_real x4 _ _ _ e4,
    all_real x5 _ _ _ e5, all_real x6 _ _ _ e6, all_real x7 _ _ _ e7⟩

end Cert.Finite

end
-- ==== Proof.lean ====
/-
  A two-layer graph convolution over 100000 nodes and 1600000 edges, followed by a linear map.  The kernel computes
  it in three node-tiled regions (blocks of 5000 rows) with gathers and scatter-adds between them on the host, and
  moves the source-side normalisation from the edges onto the nodes:
      d n * (sum over edges landing on n of (H (s e) * d (s e)) + H n * d n) + b
  where the reference computes
      sum over edges landing on n of H (s e) * (d (s e) * d (t e)) + H n * (d n * d n) + b,
  d being (count of incoming edges + 1)^(-1/2).  The two agree when every entry is a real number, which the
  precondition (all float inputs finite) provides: on the extended reals a factor cannot be moved across a sum
  otherwise.  Edge words out of range are dropped by the scatter-add on both sides, and an edge landing on n has its
  wrapped, clamped target word equal to n, so no condition on the integer input is needed.  The change of the weights'
  float format is the identity on the extended reals; matrix products are row-by-column sums on both sides.

  The three frames are the generated ones (the reference's is its run with the result forgotten); the idealization
  rewrote nothing; the algebraic claim joins the kernel's run with its result named and the reference's run.
-/
import proofs.«120913_j71536975282839_2_alg».proof.Defs
import proofs.«120913_j71536975282839_2_alg».proof.Proof.Gen.Kernel
import proofs.«120913_j71536975282839_2_alg».proof.Proof.Gen.Kernel.Skeleton
import proofs.«120913_j71536975282839_2_alg».proof.Proof.Gen.Kernel.Launch
import proofs.«120913_j71536975282839_2_alg».proof.Proof.Gen.Kernel.Points
import proofs.«120913_j71536975282839_2_alg».proof.Proof.Gen.Kernel.Frame
import proofs.«120913_j71536975282839_2_alg».proof.Proof.Gen.KernelIdeal
import proofs.«120913_j71536975282839_2_alg».proof.Proof.Gen.KernelIdeal.Skeleton
import proofs.«120913_j71536975282839_2_alg».proof.Proof.Gen.KernelIdeal.Launch
import proofs.«120913_j71536975282839_2_alg».proof.Proof.Gen.KernelIdeal.Points
import proofs.«120913_j71536975282839_2_alg».proof.Proof.Gen.KernelIdeal.Frame
import proofs.«120913_j71536975282839_2_alg».proof.Proof.Gen.ReferenceIdeal
import proofs.«120913_j71536975282839_2_alg».proof.Proof.Gen.Pre_finite_inputs
import proofs.«120913_j71536975282839_2_alg».proof.Proof.Gen.ReferenceIdeal.Run
import proofs.«120913_j71536975282839_2_alg».proof.Proof.Gen.ReferenceIdeal.Read
import proofs.«120913_j71536975282839_2_alg».proof.Proof.KernelRun
import proofs.«120913_j71536975282839_2_alg».proof.Proof.KernelValue
import proofs.«120913_j71536975282839_2_alg».proof.Proof.FiniteInputs
import proofs.«120913_j71536975282839_2_alg».proof.Proof.RefValue
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the same result array: the reference's function of the arguments.  The kernel's
    run names its result as the contents after its last region; over finite, hence real, inputs that array is the
    reference's function (the node-side and edge-side arrangements of each layer agree on real entries).  The
    reference's run ends with its operations' composed term, which is that function of arguments that agree. -/
theorem algebraic : Cert.algebraic_KernelIdeal_ReferenceIdeal := by
  intro m ρ m' ρ' hpre hagree
  refine ⟨fun c => Cert.ReferenceIdeal.RefValue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.Named.run (F := Ideal) m ρ)
    obtain ⟨h0, h2, h3, h4, -, -, -⟩ := Cert.Finite.inputs_real _ _ _ _ _ _ _ _ (hpre c)
    exact Cert.KernelIdeal.KValue.value m ρ c h0 h2 h3 h4
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v97_eq, Cert.ReferenceIdeal.RefValue.out_eq, (hagree c).1, (hagree c).2.1,
      (hagree c).2.2.1, (hagree c).2.2.2.1, (hagree c).2.2.2.2.1, (hagree c).2.2.2.2.2.1, (hagree c).2.2.2.2.2.2.1,
      (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
